-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x4096 : Shape := ⟨3, ![4, 128, 4096]⟩
abbrev S4x2x2048x4096 : Shape := ⟨4, ![4, 2, 2048, 4096]⟩
abbrev S17408x32 : Shape := ⟨2, ![17408, 32]⟩
abbrev S_ : Shape := ⟨0, ![]⟩

class Facts : Prop where
  bcast_S_S4x128x4096 : S_.BroadcastsInDim S4x128x4096 (![] : Fin 0 → Fin S4x128x4096.rank)
  reducesTo_S4x128x4096_S_d0_1_2 : S4x128x4096.ReducesTo [0, 1, 2] S_
  h_S_ : 0 < S_.numel
  bcast_S_S4x2x2048x4096 : S_.BroadcastsInDim S4x2x2048x4096 (![] : Fin 0 → Fin S4x2x2048x4096.rank)
  reducesTo_S4x2x2048x4096_S_d0_1_2_3 : S4x2x2048x4096.ReducesTo [0, 1, 2, 3] S_
  bcast_S_S17408x32 : S_.BroadcastsInDim S17408x32 (![] : Fin 0 → Fin S17408x32.rank)
  reducesTo_S17408x32_S_d0_1 : S17408x32.ReducesTo [0, 1] S_

variable [Facts]

def fn_part1 {F : FTy → Type} [FloatOps F] (main_v13 : IVec S_ 1) (main_v16 : IVec S17408x32 1) : IVec S_ 1 :=
  let main_c_5 : IVec S_ 1 := constantI S_ 1 1#1
  let main_v17 : IVec S_ 1 := (fun x v => Host.reduce IntOp.andi x v reducesTo_S17408x32_S_d0_1 h_S_) main_v16 main_c_5
  let main_v18 : IVec S_ 1 := andi main_v13 main_v17
  main_v18

def fn {F : FTy → Type} [FloatOps F] (main_arg0 : FVec F S4x128x4096 .f32) (main_arg1 : FVec F S4x2x2048x4096 .f32) (main_arg2 : FVec F S4x128x4096 .f32) (main_arg3 : FVec F S17408x32 .f32) : IVec S_ 1 :=
  let main_v0 : FVec F S4x128x4096 .f32 := Host.absf main_arg0
  let main_cst : FVec F S_ .f32 := constant S_ .f32 0x7F800000#32
  let main_v1 : FVec F S4x128x4096 .f32 := broadcastInDim S4x128x4096 ![] bcast_S_S4x128x4096 main_cst
  let main_v2 : IVec S4x128x4096 1 := cmpf .olt main_v0 main_v1
  let main_c : IVec S_ 1 := constantI S_ 1 1#1
  let main_v3 : IVec S_ 1 := (fun x v => Host.reduce IntOp.andi x v reducesTo_S4x128x4096_S_d0_1_2 h_S_) main_v2 main_c
  let main_v4 : FVec F S4x2x2048x4096 .f32 := Host.absf main_arg1
  let main_cst_0 : FVec F S_ .f32 := constant S_ .f32 0x7F800000#32
  let main_v5 : FVec F S4x2x2048x4096 .f32 := broadcastInDim S4x2x2048x4096 ![] bcast_S_S4x2x2048x4096 main_cst_0
  let main_v6 : IVec S4x2x2048x4096 1 := cmpf .olt main_v4 main_v5
  let main_c_1 : IVec S_ 1 := constantI S_ 1 1#1
  let main_v7 : IVec S_ 1 := (fun x v => Host.reduce IntOp.andi x v reducesTo_S4x2x2048x4096_S_d0_1_2_3 h_S_) main_v6 main_c_1
  let main_v8 : IVec S_ 1 := andi main_v3 main_v7
  let main_v9 : FVec F S4x128x4096 .f32 := Host.absf main_arg2
  let main_cst_2 : FVec F S_ .f32 := constant S_ .f32 0x7F800000#32
  let main_v10 : FVec F S4x128x4096 .f32 := broadcastInDim S4x128x4096 ![] bcast_S_S4x128x4096 main_cst_2
  let main_v11 : IVec S4x128x4096 1 := cmpf .olt main_v9 main_v10
  let main_c_3 : IVec S_ 1 := constantI S_ 1 1#1
  let main_v12 : IVec S_ 1 := (fun x v => Host.reduce IntOp.andi x v reducesTo_S4x128x4096_S_d0_1_2 h_S_) main_v11 main_c_3
  let main_v13 : IVec S_ 1 := andi main_v8 main_v12
  let main_v14 : FVec F S17408x32 .f32 := Host.absf main_arg3
  let main_cst_4 : FVec F S_ .f32 := constant S_ .f32 0x7F800000#32
  let main_v15 : FVec F S17408x32 .f32 := broadcastInDim S17408x32 ![] bcast_S_S17408x32 main_cst_4
  let main_v16 : IVec S17408x32 1 := cmpf .olt main_v14 main_v15
  fn_part1 (F := F) main_v13 main_v16
-- ==== Kernel.lean ====
abbrev S4x128x4096 : Shape := ⟨3, ![4, 128, 4096]⟩
abbrev S4x2x2048x4096 : Shape := ⟨4, ![4, 2, 2048, 4096]⟩
abbrev S17408x32 : Shape := ⟨2, ![17408, 32]⟩
abbrev S4x4352x32 : Shape := ⟨3, ![4, 4352, 32]⟩
abbrev S4x128x32 : Shape := ⟨3, ![4, 128, 32]⟩
abbrev S4x4096x32 : Shape := ⟨3, ![4, 4096, 32]⟩
abbrev S4x2x2048x32 : Shape := ⟨4, ![4, 2, 2048, 32]⟩
abbrev S4x32x128 : Shape := ⟨3, ![4, 32, 128]⟩
abbrev S4x2x32x2048 : Shape := ⟨4, ![4, 2, 32, 2048]⟩
abbrev S32x4096 : Shape := ⟨2, ![32, 4096]⟩
abbrev S1x128x1024 : Shape := ⟨3, ![1, 128, 1024]⟩
abbrev S1x2x2048x1024 : Shape := ⟨4, ![1, 2, 2048, 1024]⟩
abbrev S32x1024 : Shape := ⟨2, ![32, 1024]⟩
abbrev S1x32x128 : Shape := ⟨3, ![1, 32, 128]⟩
abbrev S32x128 : Shape := ⟨2, ![32, 128]⟩
abbrev S1x2x32x2048 : Shape := ⟨4, ![1, 2, 32, 2048]⟩
abbrev S2x32x2048 : Shape := ⟨3, ![2, 32, 2048]⟩
abbrev S128x1024 : Shape := ⟨2, ![128, 1024]⟩
abbrev S2x2048x1024 : Shape := ⟨3, ![2, 2048, 1024]⟩
abbrev S1x32x2048 : Shape := ⟨3, ![1, 32, 2048]⟩
abbrev S32x2048 : Shape := ⟨2, ![32, 2048]⟩
abbrev S1x2048x1024 : Shape := ⟨3, ![1, 2048, 1024]⟩
abbrev S2048x1024 : Shape := ⟨2, ![2048, 1024]⟩
abbrev S4096x32 : Shape := ⟨2, ![4096, 32]⟩

abbrev nBuf : Space → Nat
  | .hbm => 17
  | .vmem => 11
  | .smem => 0
  | _ => 0

abbrev bufTy : (tb : Table) → Fin (tcTables nBuf tb) → BufTy
  | .hbm, ⟨0, _⟩ => ⟨S4x128x4096, .f32⟩
  | .hbm, ⟨1, _⟩ => ⟨S4x2x2048x4096, .f32⟩
  | .hbm, ⟨2, _⟩ => ⟨S4x128x4096, .f32⟩
  | .hbm, ⟨3, _⟩ => ⟨S17408x32, .f32⟩
  | .hbm, ⟨4, _⟩ => ⟨S4x4352x32, .f32⟩
  | .hbm, ⟨5, _⟩ => ⟨S4x128x32, .f32⟩
  | .hbm, ⟨6, _⟩ => ⟨S4x4096x32, .f32⟩
  | .hbm, ⟨7, _⟩ => ⟨S4x2x2048x32, .f32⟩
  | .hbm, ⟨8, _⟩ => ⟨S4x128x32, .f32⟩
  | .hbm, ⟨9, _⟩ => ⟨S4x32x128, .f32⟩
  | .hbm, ⟨10, _⟩ => ⟨S4x32x128, .bf16⟩
  | .hbm, ⟨11, _⟩ => ⟨S4x2x32x2048, .f32⟩
  | .hbm, ⟨12, _⟩ => ⟨S4x2x32x2048, .bf16⟩
  | .hbm, ⟨13, _⟩ => ⟨S4x32x128, .f32⟩
  | .hbm, ⟨14, _⟩ => ⟨S4x32x128, .bf16⟩
  | .hbm, ⟨15, _⟩ => ⟨S32x4096, .f32⟩
  | .hbm, ⟨16, _⟩ => ⟨S4096x32, .f32⟩
  | .local _ .vmem, ⟨0, _⟩ => ⟨S1x128x1024, .f32⟩
  | .local _ .vmem, ⟨1, _⟩ => ⟨S1x128x1024, .f32⟩
  | .local _ .vmem, ⟨2, _⟩ => ⟨S1x2x2048x1024, .f32⟩
  | .local _ .vmem, ⟨3, _⟩ => ⟨S1x2x2048x1024, .f32⟩
  | .local _ .vmem, ⟨4, _⟩ => ⟨S1x128x1024, .f32⟩
  | .local _ .vmem, ⟨5, _⟩ => ⟨S1x128x1024, .f32⟩
  | .local _ .vmem, ⟨6, _⟩ => ⟨S4x32x128, .bf16⟩
  | .local _ .vmem, ⟨7, _⟩ => ⟨S4x2x32x2048, .bf16⟩
  | .local _ .vmem, ⟨8, _⟩ => ⟨S4x32x128, .bf16⟩
  | .local _ .vmem, ⟨9, _⟩ => ⟨S32x1024, .f32⟩
  | .local _ .vmem, ⟨10, _⟩ => ⟨S32x1024, .f32⟩
  | _, _ => ⟨S4x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_off2 (i : grid0.Coords) : Fin 4 → Nat :=
  let arg1 : BitVec 32 := BitVec.ofNat 32 (i 1).val
  let v9 : Index := Scalar.indexCast arg1
  let c0_4 : Index := 0#32
  let c0_5 : Index := 0#32
  let c0_6 : Index := 0#32
  ![v9.toNat, 0, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x32x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x2x32x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S17408x32_S4x4352x32 : S17408x32.ShapeCasts S4x4352x32
  slices_S4x4352x32_S4x128x32_0_0_0 : S4x4352x32.Slices ![0, 0, 0] S4x128x32
  slices_S4x4352x32_S4x4096x32_0_128_0 : S4x4352x32.Slices ![0, 128, 0] S4x4096x32
  shapeCasts_S4x4096x32_S4x2x2048x32 : S4x4096x32.ShapeCasts S4x2x2048x32
  slices_S4x4352x32_S4x128x32_0_4224_0 : S4x4352x32.Slices ![0, 4224, 0] S4x128x32
  transposes_S4x128x32_S4x32x128_0_2_1 : S4x128x32.Transposes [0, 2, 1] S4x32x128
  bitsLt_bf16_f32 : FTy.bits .bf16 < FTy.bits .f32
  transposes_S4x2x2048x32_S4x2x32x2048_0_1_3_2 : S4x2x2048x32.Transposes [0, 1, 3, 2] S4x2x32x2048
  inb_S32x1024_S32x1024_0_0 : ∀ a, (![0, 0] : Fin 2 → Nat) a + S32x1024.size a ≤ S32x1024.size a
  h_S32x1024 : 0 < S32x1024.numel
  h_S1x32x128 : 0 < S1x32x128.numel
  shapeCasts_S1x32x128_S32x128 : S1x32x128.ShapeCasts S32x128
  h_S1x2x32x2048 : 0 < S1x2x32x2048.numel
  shapeCasts_S1x2x32x2048_S2x32x2048 : S1x2x32x2048.ShapeCasts S2x32x2048
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x2x2048x1024_S1x2x2048x1024_0_0_0_0 : ∀ a, (![0, 0, 0, 0] : Fin 4 → Nat) a + S1x2x2048x1024.size a ≤ S1x2x2048x1024.size a
  h_S1x2x2048x1024 : 0 < S1x2x2048x1024.numel
  shapeCasts_S1x2x2048x1024_S2x2048x1024 : S1x2x2048x1024.ShapeCasts S2x2048x1024
  slices_S2x32x2048_o0_0_0_S1x32x2048 : S2x32x2048.Slices ![0, 0, 0] S1x32x2048
  shapeCasts_S1x32x2048_S32x2048 : S1x32x2048.ShapeCasts S32x2048
  slices_S2x2048x1024_o0_0_0_S1x2048x1024 : S2x2048x1024.Slices ![0, 0, 0] S1x2048x1024
  shapeCasts_S1x2048x1024_S2048x1024 : S1x2048x1024.ShapeCasts S2048x1024
  slices_S2x32x2048_o1_0_0_S1x32x2048 : S2x32x2048.Slices ![1, 0, 0] S1x32x2048
  slices_S2x2048x1024_o1_0_0_S1x2048x1024 : S2x2048x1024.Slices ![1, 0, 0] S1x2048x1024
  shapeCasts_S32x1024_S32x1024 : S32x1024.ShapeCasts S32x1024
  transposes_S32x4096_S4096x32_1_0 : S32x4096.Transposes [1, 0] S4096x32
  dot_S32x128_S128x1024_S32x1024_1_0_0_1_n_n_wf : DotDims.WF S32x128 S128x1024 S32x1024 [1] [0] [0] [1] [] []
  dot_S32x2048_S2048x1024_S32x1024_1_0_0_1_n_n_wf : DotDims.WF S32x2048 S2048x1024 S32x1024 [1] [0] [0] [1] [] []
  hrank0 : 0 < grid0.rank
  k0_off1_inb : ∀ i : grid0.Coords, ∀ a, (k0_off1 i) a + S1x32x128.size a ≤ S4x32x128.size a
  k0_off2_inb : ∀ i : grid0.Coords, ∀ a, (k0_off2 i) a + S1x2x32x2048.size a ≤ S4x2x32x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S4x128x4096.size a
  hwx0_0 : ∀ i : grid0.Coords, EltTy.bits .f32 = 32 ∨ (Rect.block (s := S4x128x4096) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x2048x1024.size a ≤ S4x2x2048x4096.size a
  hwx0_1 : ∀ i : grid0.Coords, EltTy.bits .f32 = 32 ∨ (Rect.block (s := S4x2x2048x4096) S1x2x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1024.size a ≤ S4x128x4096.size a
  hwx0_2 : ∀ i : grid0.Coords, EltTy.bits .f32 = 32 ∨ (Rect.block (s := S4x128x4096) S1x128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x32x128.size a ≤ S4x32x128.size a
  hwx0_3 : ∀ i : grid0.Coords, EltTy.bits .bf16 = 32 ∨ (Rect.block (s := S4x32x128) S4x32x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x2x32x2048.size a ≤ S4x2x32x2048.size a
  hwx0_4 : ∀ i : grid0.Coords, EltTy.bits .bf16 = 32 ∨ (Rect.block (s := S4x2x32x2048) S4x2x32x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x32x128.size a ≤ S4x32x128.size a
  hwx0_5 : ∀ i : grid0.Coords, EltTy.bits .bf16 = 32 ∨ (Rect.block (s := S4x32x128) S4x32x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x1024.size a ≤ S32x4096.size a
  hwx0_6 : ∀ i : grid0.Coords, EltTy.bits .f32 = 32 ∨ (Rect.block (s := S32x4096) S32x1024.size (cc0_transform_6 i) (hinb0_6 i)).WholeWords (EltTy.packing .f32)

variable [Facts₀]

def dot_S32x128_S128x1024_S32x1024_1_0_0_1_n_n : DotDims S32x128 S128x1024 S32x1024 where
  lhsContracting := [1]
  rhsContracting := [0]
  lhsNonContracting := [0]
  rhsNonContracting := [1]
  lhsBatch := []
  rhsBatch := []
  wf := dot_S32x128_S128x1024_S32x1024_1_0_0_1_n_n_wf
def dot_S32x2048_S2048x1024_S32x1024_1_0_0_1_n_n : DotDims S32x2048 S2048x1024 S32x1024 where
  lhsContracting := [1]
  rhsContracting := [0]
  lhsNonContracting := [0]
  rhsNonContracting := [1]
  lhsBatch := []
  rhsBatch := []
  wf := dot_S32x2048_S2048x1024_S32x1024_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4x32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S4x2x32x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S4x32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S32x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x128x4096 : Shape := ⟨3, ![4, 128, 4096]⟩
abbrev S4x2x2048x4096 : Shape := ⟨4, ![4, 2, 2048, 4096]⟩
abbrev S17408x32 : Shape := ⟨2, ![17408, 32]⟩
abbrev S4x4096x4096 : Shape := ⟨3, ![4, 4096, 4096]⟩
abbrev S4x4352x4096 : Shape := ⟨3, ![4, 4352, 4096]⟩
abbrev S17408x4096 : Shape := ⟨2, ![17408, 4096]⟩
abbrev S4096x32 : Shape := ⟨2, ![4096, 32]⟩

abbrev nBuf : Space → Nat
  | .hbm => 8
  | .vmem => 0
  | .smem => 0
  | _ => 0

abbrev bufTy : (tb : Table) → Fin (tcTables nBuf tb) → BufTy
  | .hbm, ⟨0, _⟩ => ⟨S4x128x4096, .f32⟩
  | .hbm, ⟨1, _⟩ => ⟨S4x2x2048x4096, .f32⟩
  | .hbm, ⟨2, _⟩ => ⟨S4x128x4096, .f32⟩
  | .hbm, ⟨3, _⟩ => ⟨S17408x32, .f32⟩
  | .hbm, ⟨4, _⟩ => ⟨S4x4096x4096, .f32⟩
  | .hbm, ⟨5, _⟩ => ⟨S4x4352x4096, .f32⟩
  | .hbm, ⟨6, _⟩ => ⟨S17408x4096, .f32⟩
  | .hbm, ⟨7, _⟩ => ⟨S4096x32, .f32⟩
  | _, _ => ⟨S4x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  shapeCasts_S4x2x2048x4096_S4x4096x4096 : S4x2x2048x4096.ShapeCasts S4x4096x4096
  concatenates_S4x128x4096_S4x4096x4096_S4x128x4096_S4x4352x4096_d1 : Shape.Concatenates [S4x128x4096, S4x4096x4096, S4x128x4096] S4x4352x4096 1
  shapeCasts_S4x4352x4096_S17408x4096 : S4x4352x4096.ShapeCasts S17408x4096
  dot_S17408x4096_S17408x32_S4096x32_0_0_1_1_n_n_wf : DotDims.WF S17408x4096 S17408x32 S4096x32 [0] [0] [1] [1] [] []

variable [Facts₀]

def dot_S17408x4096_S17408x32_S4096x32_0_0_1_1_n_n : DotDims S17408x4096 S17408x32 S4096x32 where
  lhsContracting := [0]
  rhsContracting := [0]
  lhsNonContracting := [1]
  rhsNonContracting := [1]
  lhsBatch := []
  rhsBatch := []
  wf := dot_S17408x4096_S17408x32_S4096x32_0_0_1_1_n_n_wf

class Facts : Prop extends Facts₀ where

variable [Facts]
-- ==== Proof.Spec.lean ====
/-
  The result both programs compute, as ONE function of the four argument arrays.

  The weight matrix has 17408 = 4 · 4352 rows: four objects, each owning 4352 consecutive rows laid out as
  [ first core : 128 | middle core 0 : 2048 | middle core 1 : 2048 | last core : 128 ].
  Entry (b, o) of the result is the sum, over the four objects, of the object's contribution: the inner products
  of column `o` of the object's four row blocks of the weight with column `b` of its four cores.

  Everything here is over the extended reals, where addition and multiplication are commutative and associative
  and `0` is neutral for addition; nothing else is used, so no finiteness is needed.
-/
import Idealize.ShloMosaic.PureOps.Ideal
import Idealize.ShloMosaic.Lib.ValueIdx

noncomputable section

namespace Cert.Spec

open Idealize.ShloMosaic Idealize.ShloMosaic.ValueIdx

/-- The first and last cores, `[object, row, batch]`. -/
abbrev SCore : Shape := ⟨3, ![4, 128, 4096]⟩
/-- The two middle cores, `[object, which, row, batch]`. -/
abbrev SMid : Shape := ⟨4, ![4, 2, 2048, 4096]⟩
/-- The weight, `[row, out]`. -/
abbrev SWeight : Shape := ⟨2, ![17408, 32]⟩
/-- The result, `[batch, out]`. -/
abbrev SRes : Shape := ⟨2, ![4096, 32]⟩

/-- The weight row that meets row `k` of object `c`'s first core. -/
def rowFirst (c : Fin 4) (k : Fin 128) : Fin 17408 := ⟨c.val * 4352 + k.val, by omega⟩
/-- The weight row that meets row `k` of object `c`'s middle core `m`. -/
def rowMid (c : Fin 4) (m : Fin 2) (k : Fin 2048) : Fin 17408 := ⟨c.val * 4352 + 128 + m.val * 2048 + k.val, by omega⟩
/-- The weight row that meets row `k` of object `c`'s last core. -/
def rowLast (c : Fin 4) (k : Fin 128) : Fin 17408 := ⟨c.val * 4352 + 4224 + k.val, by omega⟩

@[simp] theorem rowFirst_val (c : Fin 4) (k : Fin 128) : (rowFirst c k).val = c.val * 4352 + k.val := rfl
@[simp] theorem rowMid_val (c : Fin 4) (m : Fin 2) (k : Fin 2048) : (rowMid c m k).val = c.val * 4352 + 128 + m.val * 2048 + k.val := rfl
@[simp] theorem rowLast_val (c : Fin 4) (k : Fin 128) : (rowLast c k).val = c.val * 4352 + 4224 + k.val := rfl

/-- The grid has 16 points: 4 batch tiles of 1024 columns, and inside each tile the 4 objects in order.
    The object point `n` works on. -/
def objOf (n : ℕ) : Fin 4 := ⟨n % 4, Nat.mod_lt _ (by decide)⟩
/-- The batch column under position `b` of point `n`'s batch tile. -/
def colOf (n : ℕ) (hn : n < 16) (b : Fin 1024) : Fin 4096 := ⟨n / 4 * 1024 + b.val, by have := b.isLt; omega⟩

@[simp] theorem objOf_val (n : ℕ) : (objOf n).val = n % 4 := rfl
@[simp] theorem colOf_val (n : ℕ) (hn : n < 16) (b : Fin 1024) : (colOf n hn b).val = n / 4 * 1024 + b.val := rfl

variable (cf : SCore.Idx → EReal) (cm : SMid.Idx → EReal) (cl : SCore.Idx → EReal) (w : SWeight.Idx → EReal)

/-- Object `c`'s contribution to entry `(b, o)`: first core, then the two middle cores, then the last core,
    each an inner product over the core's rows, weight factor on the left. -/
def term (c : Fin 4) (b : Fin 4096) (o : Fin 32) : EReal :=
  ((∑ k : Fin 128, w (ix2 (rowFirst c k) o) * cf (ix3 c k b)
      + ∑ k : Fin 2048, w (ix2 (rowMid c 0 k) o) * cm (ix4 c 0 k b))
      + ∑ k : Fin 2048, w (ix2 (rowMid c 1 k) o) * cm (ix4 c 1 k b))
    + ∑ k : Fin 128, w (ix2 (rowLast c k) o) * cl (ix3 c k b)

/-- The contributions of the objects `0 … n - 1` (an object number past the fourth contributes nothing). -/
def partialSum (n : ℕ) (b : Fin 4096) (o : Fin 32) : EReal :=
  ∑ c ∈ Finset.range n, if h : c < 4 then term cf cm cl w ⟨c, h⟩ b o else 0

/-- THE SPECIFICATION: entry `(b, o)` of the result is the sum of the four objects' contributions. -/
def G : SRes.Idx → EReal := fun j => ∑ c : Fin 4, term cf cm cl w c (j 0) (j 1)

theorem partialSum_zero (b : Fin 4096) (o : Fin 32) : partialSum cf cm cl w 0 b o = 0 := by
  unfold partialSum; rw [Finset.range_zero, Finset.sum_empty]

/-- One more object: its contribution is added on the right. -/
theorem partialSum_succ (n : ℕ) (h : n < 4) (b : Fin 4096) (o : Fin 32) :
    partialSum cf cm cl w (n + 1) b o = partialSum cf cm cl w n b o + term cf cm cl w ⟨n, h⟩ b o := by
  unfold partialSum; rw [Finset.sum_range_succ, dif_pos h]

/-- All four objects: the specification. -/
theorem partialSum_four (b : Fin 4096) (o : Fin 32) : partialSum cf cm cl w 4 b o = G cf cm cl w (ix2 b o) := by
  unfold partialSum G
  rw [Finset.sum_range]
  exact Finset.sum_congr rfl fun c _ => by rw [dif_pos c.isLt]

end Cert.Spec

end
-- ==== Proof.SumSplit.lean ====
/-
  A sum over the 17408 weight rows, split by object and by core.

  The rows are numbered object by object: row `i = c · 4352 + r` belongs to object `c` (of 4) and is its row `r`
  (of 4352); within an object the rows are laid out as
  [ first core : 128 | middle core 0 : 2048 | middle core 1 : 2048 | last core : 128 ].
  So a sum over all rows is the sum over the objects of the four block sums. This is a re-indexing of a finite sum,
  valid in every additive commutative monoid: nothing about the summands is used.
-/
import Mathlib.Algebra.BigOperators.Fin
import proofs.«132847_j60473139528502_2_alg».proof.Proof.Spec

namespace Cert.RowSum

open Cert.Spec

variable {M : Type*} [AddCommMonoid M]

/-- A row number is an (object, row within the object) pair: `i = c · 4352 + r` with `r < 4352`, that is
    `c = i / 4352` and `r = i % 4352`. -/
def objRow : Fin 4 × Fin 4352 ≃ Fin 17408 where
  toFun p := ⟨p.1.val * 4352 + p.2.val, by omega⟩
  invFun i := (⟨i.val / 4352, by omega⟩, ⟨i.val % 4352, by omega⟩)
  left_inv p := by
    obtain ⟨c, r⟩ := p
    refine Prod.ext (Fin.ext ?_) (Fin.ext ?_)
    · show (c.val * 4352 + r.val) / 4352 = c.val
      omega
    · show (c.val * 4352 + r.val) % 4352 = r.val
      omega
  right_inv i := Fin.ext (by
    show i.val / 4352 * 4352 + i.val % 4352 = i.val
    omega)

/-- A sum over the rows is the sum over the objects of the sums over each object's 4352 rows. -/
theorem sum_by_object (f : Fin 17408 → M) :
    ∑ i, f i = ∑ c : Fin 4, ∑ r : Fin 4352, f ⟨c.val * 4352 + r.val, by omega⟩ := by
  rw [← objRow.sum_comp f, Fintype.sum_prod_type]
  rfl

/-- A sum over `a + b` consecutive numbers is the sum over the first `a` plus the sum over the last `b`. -/
theorem sum_append (a b : ℕ) (g : Fin (a + b) → M) :
    ∑ r, g r = ∑ k : Fin a, g ⟨k.val, by omega⟩ + ∑ k : Fin b, g ⟨a + k.val, by omega⟩ :=
  Fin.sum_univ_add g

/-- A sum over an object's 4352 rows is the sum of its four block sums: 4352 = ((128 + 2048) + 2048) + 128. -/
theorem sum_by_core (g : Fin 4352 → M) :
    ∑ r, g r
      = ((∑ k : Fin 128, g ⟨k.val, by omega⟩ + ∑ k : Fin 2048, g ⟨128 + k.val, by omega⟩)
          + ∑ k : Fin 2048, g ⟨2176 + k.val, by omega⟩)
        + ∑ k : Fin 128, g ⟨4224 + k.val, by omega⟩ := by
  rw [sum_append 4224 128 g,
    sum_append 2176 2048 (fun k : Fin 4224 => g ⟨k.val, by omega⟩),
    sum_append 128 2048 (fun k : Fin 2176 => g ⟨k.val, by omega⟩)]

/-- **The splitting law**: a sum over the 17408 rows is the sum over the four objects of the sums over the rows of
    the first core, of the two middle cores and of the last core, in that order. -/
theorem sum_rows (f : Fin 17408 → M) :
    ∑ i, f i
      = ∑ c : Fin 4,
          (((∑ k : Fin 128, f (rowFirst c k) + ∑ k : Fin 2048, f (rowMid c 0 k))
              + ∑ k : Fin 2048, f (rowMid c 1 k))
            + ∑ k : Fin 128, f (rowLast c k)) := by
  rw [sum_by_object f]
  refine Finset.sum_congr rfl fun c _ => ?_
  rw [sum_by_core fun r : Fin 4352 => f ⟨c.val * 4352 + r.val, by omega⟩]
  have e0 : ∀ k : Fin 128, (⟨c.val * 4352 + k.val, by omega⟩ : Fin 17408) = rowFirst c k := fun k => rfl
  have e1 : ∀ k : Fin 2048, (⟨c.val * 4352 + (128 + k.val), by omega⟩ : Fin 17408) = rowMid c 0 k := fun k =>
    Fin.ext (by show c.val * 4352 + (128 + k.val) = c.val * 4352 + 128 + (0 : Fin 2).val * 2048 + k.val; simp; omega)
  have e2 : ∀ k : Fin 2048, (⟨c.val * 4352 + (2176 + k.val), by omega⟩ : Fin 17408) = rowMid c 1 k := fun k =>
    Fin.ext (by show c.val * 4352 + (2176 + k.val) = c.val * 4352 + 128 + (1 : Fin 2).val * 2048 + k.val; simp; omega)
  have e3 : ∀ k : Fin 128, (⟨c.val * 4352 + (4224 + k.val), by omega⟩ : Fin 17408) = rowLast c k := fun k =>
    Fin.ext (by show c.val * 4352 + (4224 + k.val) = c.val * 4352 + 4224 + k.val; omega)
  simp only [e0, e1, e2, e3]

end Cert.RowSum
-- ==== Proof.RefValue.lean ====
/-
  The reference computes the specification.

  The reference builds the matrix `I` with 17408 rows and 4096 columns by joining, for each of the four objects, its
  first core (128 rows), its two middle cores (2 · 2048 rows, the pair of cores flattened into one block of 4096 rows)
  and its last core (128 rows) along the row axis, and then flattening the object axis into the rows: row
  `c · 4352 + r` of `I` is row `r` of object `c`'s joined block. Its result at `(b, o)` is
  `∑ i, I[i, b] · W[i, o]`.

  Reading `I` at a row of each of the four kinds gives the matching core entry; splitting the sum over the rows by
  object and by core, and commuting each product, gives the specification's sum of the four objects' contributions.
-/
import proofs.«132847_j60473139528502_2_alg».proof.Proof.SumSplit
import proofs.«132847_j60473139528502_2_alg».proof.Proof.Gen.ReferenceIdeal.Read

noncomputable section

namespace Cert.RefValue

open Cert.ReferenceIdeal Cert.ReferenceIdeal.Gen Cert.ReferenceIdeal.Read Cert.Spec
open Idealize.ShloMosaic Idealize.ShloMosaic.ValueIdx

variable (x0 : (⟨S4x128x4096, .f32⟩ : BufTy).Contents (Elt Ideal))
  (x1 : (⟨S4x2x2048x4096, .f32⟩ : BufTy).Contents (Elt Ideal))
  (x2 : (⟨S4x128x4096, .f32⟩ : BufTy).Contents (Elt Ideal))
  (x3 : (⟨S17408x32, .f32⟩ : BufTy).Contents (Elt Ideal))

/-! ## The rows of `I`

Entry `(i, b)` of `I` is entry number `i · 4096 + b` of the joined array `[4, 4352, 4096]` in row-major order, that is
its entry `(i / 4352, i % 4352, b)`. With `i = c · 4352 + r` this is `(c, r, b)`, and the joined array at `(c, r, b)` is the
piece whose span of rows holds `r`, at `r` less the rows before that piece. -/

/-- Row `k` of object `c`'s first core: the first piece, no rows before it. -/
theorem row_first (c : Fin 4) (k : Fin 128) (b : Fin 4096) :
    val_main_v2 (F := Ideal) x0 x1 x2 (ix2 (rowFirst c k) b) = x0 (ix3 c k b) := by
  rw [val_main_v2_apply]
  unfold val_main_v1
  refine concatenate_apply_piece (t := S4x4352x4096) 1
    [⟨S4x128x4096, x0⟩, ⟨S4x4096x4096, val_main_v0 (F := Ideal) x1⟩, ⟨S4x128x4096, x2⟩]
    concatenates_S4x128x4096_S4x4096x4096_S4x128x4096_S4x4352x4096_d1
    (idx_main_v2 (ix2 (rowFirst c k) b)) 0 (Nat.succ_pos 2) S4x128x4096 x0 rfl rfl 0 rfl (ix3 c k b) ?_ ?_
  · intro a ha
    match a with
    | ⟨0, _⟩ =>
      show c.val = ((c.val * 4352 + k.val) * 4096 + b.val) / 17825792
      omega
    | ⟨1, _⟩ => exact absurd rfl ha
    | ⟨2, _⟩ =>
      show b.val = ((c.val * 4352 + k.val) * 4096 + b.val) % 4096
      omega
  · show 0 + k.val = ((c.val * 4352 + k.val) * 4096 + b.val) / 4096 % 4352
    omega

/-- Row `k` of object `c`'s middle core `m`: the second piece, 128 rows before it. That piece is the pair of middle cores
    flattened to 4096 rows, whose row `m · 2048 + k` is row `k` of core `m`. -/
theorem row_mid (c : Fin 4) (m : Fin 2) (k : Fin 2048) (b : Fin 4096) :
    val_main_v2 (F := Ideal) x0 x1 x2 (ix2 (rowMid c m k) b) = x1 (ix4 c m k b) := by
  rw [val_main_v2_apply]
  unfold val_main_v1
  refine (concatenate_apply_piece (t := S4x4352x4096) 1
    [⟨S4x128x4096, x0⟩, ⟨S4x4096x4096, val_main_v0 (F := Ideal) x1⟩, ⟨S4x128x4096, x2⟩]
    concatenates_S4x128x4096_S4x4096x4096_S4x128x4096_S4x4352x4096_d1
    (idx_main_v2 (ix2 (rowMid c m k) b)) 1 (Nat.succ_lt_succ (Nat.succ_pos 1)) S4x4096x4096 (val_main_v0 (F := Ideal) x1) rfl rfl
    128 rfl (ix3 c (⟨m.val * 2048 + k.val, by omega⟩ : Fin 4096) b) ?_ ?_).trans ?_
  · intro a ha
    match a with
    | ⟨0, _⟩ =>
      show c.val = ((c.val * 4352 + 128 + m.val * 2048 + k.val) * 4096 + b.val) / 17825792
      omega
    | ⟨1, _⟩ => exact absurd rfl ha
    | ⟨2, _⟩ =>
      show b.val = ((c.val * 4352 + 128 + m.val * 2048 + k.val) * 4096 + b.val) % 4096
      omega
  · show 128 + (m.val * 2048 + k.val) = ((c.val * 4352 + 128 + m.val * 2048 + k.val) * 4096 + b.val) / 4096 % 4352
    omega
  · rw [val_main_v0_apply]
    refine congrArg x1 (funext fun a => Fin.ext ?_)
    match a with
    | ⟨0, _⟩ =>
      show ((c.val * 4096 + (m.val * 2048 + k.val)) * 4096 + b.val) / 16777216 = c.val
      omega
    | ⟨1, _⟩ =>
      show ((c.val * 4096 + (m.val * 2048 + k.val)) * 4096 + b.val) / 8388608 % 2 = m.val
      omega
    | ⟨2, _⟩ =>
      show ((c.val * 4096 + (m.val * 2048 + k.val)) * 4096 + b.val) / 4096 % 2048 = k.val
      omega
    | ⟨3, _⟩ =>
      show ((c.val * 4096 + (m.val * 2048 + k.val)) * 4096 + b.val) % 4096 = b.val
      omega

/-- Row `k` of object `c`'s last core: the third piece, 128 + 4096 = 4224 rows before it. -/
theorem row_last (c : Fin 4) (k : Fin 128) (b : Fin 4096) :
    val_main_v2 (F := Ideal) x0 x1 x2 (ix2 (rowLast c k) b) = x2 (ix3 c k b) := by
  rw [val_main_v2_apply]
  unfold val_main_v1
  refine concatenate_apply_piece (t := S4x4352x4096) 1
    [⟨S4x128x4096, x0⟩, ⟨S4x4096x4096, val_main_v0 (F := Ideal) x1⟩, ⟨S4x128x4096, x2⟩]
    concatenates_S4x128x4096_S4x4096x4096_S4x128x4096_S4x4352x4096_d1
    (idx_main_v2 (ix2 (rowLast c k) b)) 2 (Nat.lt_succ_self 2) S4x128x4096 x2 rfl rfl 4224 rfl (ix3 c k b) ?_ ?_
  · intro a ha
    match a with
    | ⟨0, _⟩ =>
      show c.val = ((c.val * 4352 + 4224 + k.val) * 4096 + b.val) / 17825792
      omega
    | ⟨1, _⟩ => exact absurd rfl ha
    | ⟨2, _⟩ =>
      show b.val = ((c.val * 4352 + 4224 + k.val) * 4096 + b.val) % 4096
      omega
  · show 4224 + k.val = ((c.val * 4352 + 4224 + k.val) * 4096 + b.val) / 4096 % 4352
    omega

/-! ## The reference's result -/

/-- **The reference computes the specification.** -/
theorem ref_eq_spec :
    Cert.ReferenceIdeal.Read.val_main_v3 (F := Ideal) x0 x1 x2 x3 = Cert.Spec.G x0 x1 x2 x3 := by
  funext j
  obtain ⟨b, o, rfl⟩ : ∃ (b : Fin 4096) (o : Fin 32), j = ix2 b o := ⟨j 0, j 1, eq_ix2 j⟩
  rw [val_main_v3_apply]
  -- the reference's sum runs over the rows `i`, its summand `I[i, b] · W[i, o]`
  have hl : ∀ i : Fin 17408, lidx_main_v3 (ix2 b o) i = ix2 i b := fun i =>
    funext fun a => by match a with | ⟨0, _⟩ => rfl | ⟨1, _⟩ => rfl
  have hr : ∀ i : Fin 17408, ridx_main_v3 (ix2 b o) i = ix2 i o := fun i =>
    funext fun a => by match a with | ⟨0, _⟩ => rfl | ⟨1, _⟩ => rfl
  refine (Finset.sum_congr rfl fun i _ => by rw [hl i, hr i]).trans ?_
  -- split it by object and by core
  refine (RowSum.sum_rows fun i : Fin 17408 => val_main_v2 (F := Ideal) x0 x1 x2 (ix2 i b) * x3 (ix2 i o)).trans ?_
  show _ = ∑ c : Fin 4, term x0 x1 x2 x3 c b o
  refine Finset.sum_congr rfl fun c _ => ?_
  unfold term
  -- block by block: read `I` at the row and commute the product
  refine congrArg₂ (· + ·) (congrArg₂ (· + ·) (congrArg₂ (· + ·) ?_ ?_) ?_) ?_
  · exact Finset.sum_congr rfl fun k _ => by beta_reduce; rw [row_first, mul_comm]
  · exact Finset.sum_congr rfl fun k _ => by beta_reduce; rw [row_mid, mul_comm]
  · exact Finset.sum_congr rfl fun k _ => by beta_reduce; rw [row_mid, mul_comm]
  · exact Finset.sum_congr rfl fun k _ => by beta_reduce; rw [row_last, mul_comm]

end Cert.RefValue

end
-- ==== Proof.PointValue.lean ====
/-
  What one grid point leaves in the output block's staging buffer, as a value.

  The body loads the point's three core blocks whole, and of the three resident weight arrays the slab of the
  current object (the grid's inner coordinate); it adds the four matrix products to what the block held before.
  At the first object of a batch tile the block is first overwritten with zeros, so "what it held before" is the
  zero block there; at the later objects it is what the previous point left.
-/
import proofs.«132847_j60473139528502_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PointValue

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The slab of the current object in a first- or last-core weight array `[object, out, row]`. -/
def slab3 (i : grid0.Coords) (x : Vec F S4x32x128 .bf16) : Vec F S1x32x128 .bf16 :=
  View.ld (Val := Elt F) x (Rect.unit (s := S4x32x128) (k0_off1 i) S1x32x128.size (k0_off1_inb i))

/-- The slab of the current object in the middle-core weight array `[object, which, out, row]`. -/
def slab4 (i : grid0.Coords) (x : Vec F S4x2x32x2048 .bf16) : Vec F S1x2x32x2048 .bf16 :=
  View.ld (Val := Elt F) x (Rect.unit (s := S4x2x32x2048) (k0_off2 i) S1x2x32x2048.size (k0_off2_inb i))

/-- The body's arithmetic at a point: the four products of the current object's weight slabs with the point's core
    blocks, added to `acc`, the block's earlier contents. -/
def step (i : grid0.Coords) (x0 : Vec F S1x128x1024 .f32) (x1 : Vec F S1x2x2048x1024 .f32) (x2 : Vec F S1x128x1024 .f32)
    (x3 : Vec F S4x32x128 .bf16) (x4 : Vec F S4x2x32x2048 .bf16) (x5 : Vec F S4x32x128 .bf16)
    (acc : Vec F S32x1024 .f32) : Vec F S32x1024 .f32 :=
  k0_pay1 (k0_pay3 (slab3 i x5)) (k0_pay4 x2) (k0_pay5 (slab3 i x3) (slab4 i x4) x0 x1)
    (constant S32x1024 .f32 0x00000000#32) acc

/-- A later object of a batch tile: the block held `xo6`, and the body adds its products to it. -/
theorem out_later (c : Dev nD) (i : grid0.Coords) (arg2 : Memref sig .tc .vmem S1x128x1024 .f32) (harg2 : arg2.IsWhole) (arg3 : Memref sig .tc .vmem S1x2x2048x1024 .f32) (harg3 : arg3.IsWhole) (arg4 : Memref sig .tc .vmem S1x128x1024 .f32) (harg4 : arg4.IsWhole) (arg5 : Memref sig .tc .vmem S4x32x128 .bf16) (harg5 : arg5.IsWhole) (arg6 : Memref sig .tc .vmem S4x2x32x2048 .bf16) (harg6 : arg6.IsWhole) (arg7 : Memref sig .tc .vmem S4x32x128 .bf16) (harg7 : arg7.IsWhole) (arg8 : Memref sig .tc .vmem S32x1024 .f32) (harg8 : arg8.IsWhole) (hc0 : ¬cond0_0 i) (x0 : Vec F S1x128x1024 .f32) (x1 : Vec F S1x2x2048x1024 .f32) (x2 : Vec F S1x128x1024 .f32) (x3 : Vec F S4x32x128 .bf16) (x4 : Vec F S4x2x32x2048 .bf16) (x5 : Vec F S4x32x128 .bf16) (xo6 : Vec F S32x1024 .f32) :
    out0_B_6 c i arg2 harg2 arg3 harg3 arg4 harg4 arg5 harg5 arg6 harg6 arg7 harg7 arg8 harg8 hc0 x0 x1 x2 x3 x4 x5 xo6 = step i x0 x1 x2 x3 x4 x5 xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 x5 xo6)]
  unfold kernelRun0_B
  dsimp only
  sl_unfold_words
  rw [View.canon_unit_zero zeros2]
  simp only [View.readAt_eq_ld, harg2.read_unread, harg3.read_unread, harg4.read_unread, harg5.read_unread,
    harg6.read_unread, harg7.read_unread, harg8.read_unread, View.ld_unit_zero (S := S32x1024) zeros2,
    View.ld_unit_zero (S := S1x128x1024) zeros3, View.ld_unit_zero (S := S1x2x2048x1024) zeros4]
  rfl

/-- The first object of a batch tile: the block is zeroed, read back, and the body adds its products to the zeros. -/
theorem out_first (c : Dev nD) (i : grid0.Coords) (arg2 : Memref sig .tc .vmem S1x128x1024 .f32) (harg2 : arg2.IsWhole) (arg3 : Memref sig .tc .vmem S1x2x2048x1024 .f32) (harg3 : arg3.IsWhole) (arg4 : Memref sig .tc .vmem S1x128x1024 .f32) (harg4 : arg4.IsWhole) (arg5 : Memref sig .tc .vmem S4x32x128 .bf16) (harg5 : arg5.IsWhole) (arg6 : Memref sig .tc .vmem S4x2x32x2048 .bf16) (harg6 : arg6.IsWhole) (arg7 : Memref sig .tc .vmem S4x32x128 .bf16) (harg7 : arg7.IsWhole) (arg8 : Memref sig .tc .vmem S32x1024 .f32) (harg8 : arg8.IsWhole) (hc0 : cond0_0 i) (x0 : Vec F S1x128x1024 .f32) (x1 : Vec F S1x2x2048x1024 .f32) (x2 : Vec F S1x128x1024 .f32) (x3 : Vec F S4x32x128 .bf16) (x4 : Vec F S4x2x32x2048 .bf16) (x5 : Vec F S4x32x128 .bf16) :
    out0_A_6 c i arg2 harg2 arg3 harg3 arg4 harg4 arg5 harg5 arg6 harg6 arg7 harg7 arg8 harg8 hc0 x0 x1 x2 x3 x4 x5 = step i x0 x1 x2 x3 x4 x5 (k0_pay2 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S32x1024) zeros2, View.readCov_unit_zero (S := S32x1024) _ zeros2]
  simp only [View.readAt_eq_ld, harg2.read_unread, harg3.read_unread, harg4.read_unread, harg5.read_unread,
    harg6.read_unread, harg7.read_unread, View.ld_unit_zero (S := S1x128x1024) zeros3,
    View.ld_unit_zero (S := S1x2x2048x1024) zeros4]
  rfl

end Cert.KernelIdeal.PointValue

end
-- ==== Proof.MatmulRead.lean ====
/-
  The body's matrix products read at an index.  Over the extended reals a product accumulated into the zero block is,
  at output position (o, b), the plain sum over the contracted axis of (row o of the left factor) · (column b of
  the right factor): no rounding and no chunking order is left in it.
-/
import proofs.«132847_j60473139528502_2_alg».proof.Proof.Gen.KernelIdeal
import Idealize.ShloMosaic.Lib.ValueIdx
import Idealize.ShloMosaic.PureOps.Ideal.Laws

noncomputable section

open Idealize.ShloMosaic Idealize.ShloMosaic.ValueIdx

namespace Cert.KernelIdeal.MatmulRead

open Cert.KernelIdeal Cert.KernelIdeal.Gen

section Short

theorem lhsShort_row (i : S32x1024.Idx) (q : dot_S32x128_S128x1024_S32x1024_1_0_0_1_n_n.contr.Idx) :
    (dot_S32x128_S128x1024_S32x1024_1_0_0_1_n_n.lhsIdx i q 0).val = (i 0).val := by
  unfold DotDims.lhsIdx
  rw [dif_neg (show ¬(0 : Fin S32x128.rank) ∈ dot_S32x128_S128x1024_S32x1024_1_0_0_1_n_n.lhsBatch by decide), dif_pos (show (0 : Fin S32x128.rank) ∈ dot_S32x128_S128x1024_S32x1024_1_0_0_1_n_n.lhsNonContracting by decide)]
  rfl
theorem lhsShort_contr (i : S32x1024.Idx) (q : dot_S32x128_S128x1024_S32x1024_1_0_0_1_n_n.contr.Idx) :
    (dot_S32x128_S128x1024_S32x1024_1_0_0_1_n_n.lhsIdx i q 1).val = (q ⟨0, by decide⟩).val :=
  dot_S32x128_S128x1024_S32x1024_1_0_0_1_n_n.lhsIdx_val_of_single rfl i q
theorem rhsShort_contr (i : S32x1024.Idx) (q : dot_S32x128_S128x1024_S32x1024_1_0_0_1_n_n.contr.Idx) :
    (dot_S32x128_S128x1024_S32x1024_1_0_0_1_n_n.rhsIdx i q 0).val = (q ⟨0, by decide⟩).val :=
  dot_S32x128_S128x1024_S32x1024_1_0_0_1_n_n.rhsIdx_val_of_single rfl i q
theorem rhsShort_col (i : S32x1024.Idx) (q : dot_S32x128_S128x1024_S32x1024_1_0_0_1_n_n.contr.Idx) :
    (dot_S32x128_S128x1024_S32x1024_1_0_0_1_n_n.rhsIdx i q 1).val = (i 1).val := by
  unfold DotDims.rhsIdx
  rw [dif_neg (show ¬(1 : Fin S128x1024.rank) ∈ dot_S32x128_S128x1024_S32x1024_1_0_0_1_n_n.rhsBatch by decide), dif_pos (show (1 : Fin S128x1024.rank) ∈ dot_S32x128_S128x1024_S32x1024_1_0_0_1_n_n.rhsNonContracting by decide)]
  rfl

/-- A `[32, 128] × [128, 1024]` product into the zero block, at `(o, b)`: the inner product of row `o` and column `b`. -/
theorem matmulShort_apply (l : FVec Ideal S32x128 .bf16) (r : FVec Ideal S128x1024 .bf16) (o : Fin 32) (b : Fin 1024) :
    matmul dot_S32x128_S128x1024_S32x1024_1_0_0_1_n_n none l r (constant (F := Ideal) S32x1024 .f32 0x00000000#32) (ix2 o b)
      = ∑ k : Fin 128, l (ix2 o k) * r (ix2 k b) := by
  simp only [matmul]
  rw [Ideal.matmul_constant_zero_apply, ← Equiv.sum_comp (contrEquiv1 dot_S32x128_S128x1024_S32x1024_1_0_0_1_n_n 128 rfl rfl).symm]
  refine Finset.sum_congr rfl fun k _ => ?_
  have hk := contrEquiv1_symm_val dot_S32x128_S128x1024_S32x1024_1_0_0_1_n_n 128 rfl rfl k
  have el : dot_S32x128_S128x1024_S32x1024_1_0_0_1_n_n.lhsIdx (ix2 o b) ((contrEquiv1 dot_S32x128_S128x1024_S32x1024_1_0_0_1_n_n 128 rfl rfl).symm k) = ix2 o k := funext fun a => Fin.ext (by
    match a with
    | ⟨0, _⟩ => exact lhsShort_row _ _
    | ⟨1, _⟩ => exact (lhsShort_contr _ _).trans hk)
  have er : dot_S32x128_S128x1024_S32x1024_1_0_0_1_n_n.rhsIdx (ix2 o b) ((contrEquiv1 dot_S32x128_S128x1024_S32x1024_1_0_0_1_n_n 128 rfl rfl).symm k) = ix2 k b := funext fun a => Fin.ext (by
    match a with
    | ⟨0, _⟩ => exact (rhsShort_contr _ _).trans hk
    | ⟨1, _⟩ => exact rhsShort_col _ _)
  rw [el, er]

end Short

section Long

theorem lhsLong_row (i : S32x1024.Idx) (q : dot_S32x2048_S2048x1024_S32x1024_1_0_0_1_n_n.contr.Idx) :
    (dot_S32x2048_S2048x1024_S32x1024_1_0_0_1_n_n.lhsIdx i q 0).val = (i 0).val := by
  unfold DotDims.lhsIdx
  rw [dif_neg (show ¬(0 : Fin S32x2048.rank) ∈ dot_S32x2048_S2048x1024_S32x1024_1_0_0_1_n_n.lhsBatch by decide), dif_pos (show (0 : Fin S32x2048.rank) ∈ dot_S32x2048_S2048x1024_S32x1024_1_0_0_1_n_n.lhsNonContracting by decide)]
  rfl
theorem lhsLong_contr (i : S32x1024.Idx) (q : dot_S32x2048_S2048x1024_S32x1024_1_0_0_1_n_n.contr.Idx) :
    (dot_S32x2048_S2048x1024_S32x1024_1_0_0_1_n_n.lhsIdx i q 1).val = (q ⟨0, by decide⟩).val :=
  dot_S32x2048_S2048x1024_S32x1024_1_0_0_1_n_n.lhsIdx_val_of_single rfl i q
theorem rhsLong_contr (i : S32x1024.Idx) (q : dot_S32x2048_S2048x1024_S32x1024_1_0_0_1_n_n.contr.Idx) :
    (dot_S32x2048_S2048x1024_S32x1024_1_0_0_1_n_n.rhsIdx i q 0).val = (q ⟨0, by decide⟩).val :=
  dot_S32x2048_S2048x1024_S32x1024_1_0_0_1_n_n.rhsIdx_val_of_single rfl i q
theorem rhsLong_col (i : S32x1024.Idx) (q : dot_S32x2048_S2048x1024_S32x1024_1_0_0_1_n_n.contr.Idx) :
    (dot_S32x2048_S2048x1024_S32x1024_1_0_0_1_n_n.rhsIdx i q 1).val = (i 1).val := by
  unfold DotDims.rhsIdx
  rw [dif_neg (show ¬(1 : Fin S2048x1024.rank) ∈ dot_S32x2048_S2048x1024_S32x1024_1_0_0_1_n_n.rhsBatch by decide), dif_pos (show (1 : Fin S2048x1024.rank) ∈ dot_S32x2048_S2048x1024_S32x1024_1_0_0_1_n_n.rhsNonContracting by decide)]
  rfl

/-- A `[32, 2048] × [2048, 1024]` product into the zero block, at `(o, b)`: the inner product of row `o` and column `b`. -/
theorem matmulLong_apply (l : FVec Ideal S32x2048 .bf16) (r : FVec Ideal S2048x1024 .bf16) (o : Fin 32) (b : Fin 1024) :
    matmul dot_S32x2048_S2048x1024_S32x1024_1_0_0_1_n_n none l r (constant (F := Ideal) S32x1024 .f32 0x00000000#32) (ix2 o b)
      = ∑ k : Fin 2048, l (ix2 o k) * r (ix2 k b) := by
  simp only [matmul]
  rw [Ideal.matmul_constant_zero_apply, ← Equiv.sum_comp (contrEquiv1 dot_S32x2048_S2048x1024_S32x1024_1_0_0_1_n_n 2048 rfl rfl).symm]
  refine Finset.sum_congr rfl fun k _ => ?_
  have hk := contrEquiv1_symm_val dot_S32x2048_S2048x1024_S32x1024_1_0_0_1_n_n 2048 rfl rfl k
  have el : dot_S32x2048_S2048x1024_S32x1024_1_0_0_1_n_n.lhsIdx (ix2 o b) ((contrEquiv1 dot_S32x2048_S2048x1024_S32x1024_1_0_0_1_n_n 2048 rfl rfl).symm k) = ix2 o k := funext fun a => Fin.ext (by
    match a with
    | ⟨0, _⟩ => exact lhsLong_row _ _
    | ⟨1, _⟩ => exact (lhsLong_contr _ _).trans hk)
  have er : dot_S32x2048_S2048x1024_S32x1024_1_0_0_1_n_n.rhsIdx (ix2 o b) ((contrEquiv1 dot_S32x2048_S2048x1024_S32x1024_1_0_0_1_n_n 2048 rfl rfl).symm k) = ix2 k b := funext fun a => Fin.ext (by
    match a with
    | ⟨0, _⟩ => exact (rhsLong_contr _ _).trans hk
    | ⟨1, _⟩ => exact rhsLong_col _ _)
  rw [el, er]

end Long

end Cert.KernelIdeal.MatmulRead

end
-- ==== Proof.StepValue.lean ====
/-
  One grid point's arithmetic, entry by entry, over the extended reals.

  At output position (o, b) of the block, the body adds to the block's earlier contents the four inner products
      Σₖ wFirst[o, k] · first[k, b]  +  Σₖ wMid₀[o, k] · mid₀[k, b]  +  Σₖ wMid₁[o, k] · mid₁[k, b]  +  Σₖ wLast[o, k] · last[k, b],
  grouped from the left, where the w's are the current object's slabs of the three weight arrays and first, mid, last
  the point's core blocks.  The casts to the narrower float format are the identity on extended reals, and the
  reshapes only drop a leading axis of length one.
-/
import proofs.«132847_j60473139528502_2_alg».proof.Proof.PointValue
import proofs.«132847_j60473139528502_2_alg».proof.Proof.MatmulRead
import Idealize.ShloMosaic.Lib.ValueLayout

noncomputable section

open Idealize.ShloMosaic Idealize.ShloMosaic.TcCoe Idealize.SL.Sem Idealize.ShloMosaic.ValueIdx

namespace Cert.KernelIdeal.StepValue

open Cert.KernelIdeal Cert.KernelIdeal.Gen Cert.KernelIdeal.PointValue Cert.KernelIdeal.MatmulRead

/-- Plane `p` of a stack of two matrices, cut out as a stack of one. -/
theorem plane_apply {α : Type} {a b : ℕ} (p : Fin 2) (off : Fin 3 → ℕ) (hoff : off = ![p.val, 0, 0])
    (X : (⟨3, ![2, a, b]⟩ : Shape).Idx → α) (h : (⟨3, ![2, a, b]⟩ : Shape).Slices off ⟨3, ![1, a, b]⟩) (i : Fin a) (j : Fin b) :
    extractStridedSlice ⟨3, ![1, a, b]⟩ off X h (ix3 (0 : Fin 1) i j) = X (ix3 p i j) := by
  subst hoff
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

theorem plane0_apply {α : Type} {a b : ℕ} (X : (⟨3, ![2, a, b]⟩ : Shape).Idx → α)
    (h : (⟨3, ![2, a, b]⟩ : Shape).Slices ![0, 0, 0] ⟨3, ![1, a, b]⟩) (i : Fin a) (j : Fin b) :
    extractStridedSlice ⟨3, ![1, a, b]⟩ ![0, 0, 0] X h (ix3 (0 : Fin 1) i j) = X (ix3 (0 : Fin 2) i j) :=
  plane_apply 0 _ rfl X h i j

theorem plane1_apply {α : Type} {a b : ℕ} (X : (⟨3, ![2, a, b]⟩ : Shape).Idx → α)
    (h : (⟨3, ![2, a, b]⟩ : Shape).Slices ![1, 0, 0] ⟨3, ![1, a, b]⟩) (i : Fin a) (j : Fin b) :
    extractStridedSlice ⟨3, ![1, a, b]⟩ ![1, 0, 0] X h (ix3 (0 : Fin 1) i j) = X (ix3 (1 : Fin 2) i j) :=
  plane_apply 1 _ rfl X h i j

/-- The current object's slab of a first- or last-core weight array: object `co` when the point's inner coordinate is `co`. -/
theorem slab3_apply {F : FTy → Type} [FloatOps F] (i : grid0.Coords) (x : Vec F S4x32x128 .bf16) (co : Fin 4)
    (hoff : k0_off1 i = ![co.val, 0, 0]) (o : Fin 32) (k : Fin 128) :
    slab3 i x (ix3 (0 : Fin 1) o k) = x (ix3 co o k) := by
  unfold slab3 View.ld
  refine congrArg x (funext fun a => Fin.ext ?_)
  match a with
  | ⟨0, _⟩ => show k0_off1 i 0 + 1 * 0 = co.val; rw [hoff]; rfl
  | ⟨1, _⟩ => show k0_off1 i 1 + 1 * o.val = o.val; rw [hoff]; show 0 + 1 * o.val = o.val; omega
  | ⟨2, _⟩ => show k0_off1 i 2 + 1 * k.val = k.val; rw [hoff]; show 0 + 1 * k.val = k.val; omega

/-- The same for the middle-core weight array. -/
theorem slab4_apply {F : FTy → Type} [FloatOps F] (i : grid0.Coords) (x : Vec F S4x2x32x2048 .bf16) (co : Fin 4)
    (hoff : k0_off2 i = ![co.val, 0, 0, 0]) (p : Fin 2) (o : Fin 32) (k : Fin 2048) :
    slab4 i x (ix4 (0 : Fin 1) p o k) = x (ix4 co p o k) := by
  unfold slab4 View.ld
  refine congrArg x (funext fun a => Fin.ext ?_)
  match a with
  | ⟨0, _⟩ => show k0_off2 i 0 + 1 * 0 = co.val; rw [hoff]; rfl
  | ⟨1, _⟩ => show k0_off2 i 1 + 1 * p.val = p.val; rw [hoff]; show 0 + 1 * p.val = p.val; omega
  | ⟨2, _⟩ => show k0_off2 i 2 + 1 * o.val = o.val; rw [hoff]; show 0 + 1 * o.val = o.val; omega
  | ⟨3, _⟩ => show k0_off2 i 3 + 1 * k.val = k.val; rw [hoff]; show 0 + 1 * k.val = k.val; omega

/-- THE POINT'S ARITHMETIC at position `(o, b)` of the block. -/
theorem step_apply (i : grid0.Coords) (x0 : Vec Ideal S1x128x1024 .f32) (x1 : Vec Ideal S1x2x2048x1024 .f32)
    (x2 : Vec Ideal S1x128x1024 .f32) (x3 : Vec Ideal S4x32x128 .bf16) (x4 : Vec Ideal S4x2x32x2048 .bf16)
    (x5 : Vec Ideal S4x32x128 .bf16) (acc : Vec Ideal S32x1024 .f32) (o : Fin 32) (b : Fin 1024) :
    step (F := Ideal) i x0 x1 x2 x3 x4 x5 acc (ix2 o b)
      = acc (ix2 o b)
        + (((∑ k : Fin 128, slab3 i x3 (ix3 (0 : Fin 1) o k) * x0 (ix3 (0 : Fin 1) k b)
              + ∑ k : Fin 2048, slab4 i x4 (ix4 (0 : Fin 1) (0 : Fin 2) o k) * x1 (ix4 (0 : Fin 1) (0 : Fin 2) k b))
              + ∑ k : Fin 2048, slab4 i x4 (ix4 (0 : Fin 1) (1 : Fin 2) o k) * x1 (ix4 (0 : Fin 1) (1 : Fin 2) k b))
            + ∑ k : Fin 128, slab3 i x5 (ix3 (0 : Fin 1) o k) * x2 (ix3 (0 : Fin 1) k b)) := by
  unfold step k0_pay1 k0_pay3 k0_pay4 k0_pay5
  dsimp only
  simp only [addf_apply, shapeCast_self]
  rw [matmulShort_apply, matmulLong_apply, matmulLong_apply, matmulShort_apply]
  simp only [truncf_apply, shapeCast_1ab_ab_apply, shapeCast_1abc_abc_apply, plane0_apply, plane1_apply]

end Cert.KernelIdeal.StepValue

end
-- ==== Proof.WindowBlocks.lean ====
/-
  What the kernel's windows present at a grid point.

  The grid has 16 points; point `t` works on object `t % 4` and on batch tile `t / 4` (1024 columns wide). At point `t`
  the first three windows present the block of the first, middle and last cores of that object under that tile:
  block index `(t % 4, 0, t / 4)` (resp. `(t % 4, 0, 0, t / 4)`), block sizes `[1, 128, 1024]` (resp. `[1, 2, 2048, 1024]`),
  so entry `(0, k, b)` of the block is entry `(t % 4, k, (t / 4) · 1024 + b)` of the array. The next three windows present
  their whole arrays (block index zero, block = array). The body reads those at the offsets `(t % 4, 0, 0[, 0])`.
-/
import proofs.«132847_j60473139528502_2_alg».proof.Proof.Gen.KernelIdeal.Frame
import proofs.«132847_j60473139528502_2_alg».proof.Proof.Spec
import Idealize.ShloMosaic.Lib.Pipeline.Value
import Idealize.ShloMosaic.Lib.ValueIdx

noncomputable section

namespace Cert.KernelIdeal.WindowBlocks

open Cert.KernelIdeal Cert.KernelIdeal.Gen Idealize.ShloMosaic Idealize.ShloMosaic.TcCoe Idealize.SL.Sem
open Idealize.ShloMosaic.ValueIdx

variable {F : FTy → Type} [FloatOps F] (m : (ℓ : Loc nD τ sig) → Buf (Elt F) ℓ)

/-! ## The block indices and the body's offsets, over the sixteen grid points -/

theorem idx0 : ∀ t : Fin cfg0.N,
    win0_0.index t 0 = t.val % 4 ∧ win0_0.index t 1 = 0 ∧ win0_0.index t 2 = t.val / 4 :=
  (by decide +kernel : ∀ t : Fin grid0.N,
    win0_0.index t 0 = t.val % 4 ∧ win0_0.index t 1 = 0 ∧ win0_0.index t 2 = t.val / 4)

theorem idx1 : ∀ t : Fin cfg0.N,
    win0_1.index t 0 = t.val % 4 ∧ win0_1.index t 1 = 0 ∧ win0_1.index t 2 = 0 ∧ win0_1.index t 3 = t.val / 4 :=
  (by decide +kernel : ∀ t : Fin grid0.N,
    win0_1.index t 0 = t.val % 4 ∧ win0_1.index t 1 = 0 ∧ win0_1.index t 2 = 0 ∧ win0_1.index t 3 = t.val / 4)

theorem idx2 : ∀ t : Fin cfg0.N,
    win0_2.index t 0 = t.val % 4 ∧ win0_2.index t 1 = 0 ∧ win0_2.index t 2 = t.val / 4 :=
  (by decide +kernel : ∀ t : Fin grid0.N,
    win0_2.index t 0 = t.val % 4 ∧ win0_2.index t 1 = 0 ∧ win0_2.index t 2 = t.val / 4)

theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

theorem idx4 : ∀ t : Fin cfg0.N,
    win0_4.index t 0 = 0 ∧ win0_4.index t 1 = 0 ∧ win0_4.index t 2 = 0 ∧ win0_4.index t 3 = 0 :=
  (by decide +kernel : ∀ t : Fin grid0.N,
    win0_4.index t 0 = 0 ∧ win0_4.index t 1 = 0 ∧ win0_4.index t 2 = 0 ∧ win0_4.index t 3 = 0)

theorem idx5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

/-- The offsets at which the body reads the first and last weight slabs: object `t % 4`'s. -/
theorem off_short (t : Fin cfg0.N) : k0_off1 (grid0.coords t) = ![(Cert.Spec.objOf t.val).val, 0, 0] :=
  (by decide +kernel : ∀ t : Fin grid0.N, k0_off1 (grid0.coords t) = ![t.val % 4, 0, 0]) t

/-- The offsets at which the body reads the middle weight slab: object `t % 4`'s. -/
theorem off_long (t : Fin cfg0.N) : k0_off2 (grid0.coords t) = ![(Cert.Spec.objOf t.val).val, 0, 0, 0] :=
  (by decide +kernel : ∀ t : Fin grid0.N, k0_off2 (grid0.coords t) = ![t.val % 4, 0, 0, 0]) t

/-! ## The core blocks -/

/-- Entry `(0, k, b)` of the first-core block at point `t`. -/
theorem first_block (c : Dev nD) (t : Fin cfg0.N) (ht : t.val < 16) (k : Fin 128) (b : Fin 1024) :
    (iblk m c 0 t : Vec F S1x128x1024 .f32) (ix3 (0 : Fin 1) k b)
      = m ((c : Thread nD τ).loc main_arg0) (ix3 (Cert.Spec.objOf t.val) k (Cert.Spec.colOf t.val ht b)) := by
  obtain ⟨h0, h1, h2⟩ := idx0 t
  unfold iblk
  rw [View.read_apply]
  show V m c main_arg0 _ = m (c.tc.loc main_arg0) _
  rw [V_main_arg0]
  refine congrArg _ (funext fun a => Fin.ext ?_)
  match a with
  | ⟨0, _⟩ => show win0_0.index t 0 * 1 + 1 * 0 = t.val % 4; rw [h0]; omega
  | ⟨1, _⟩ => show win0_0.index t 1 * 128 + 1 * k.val = k.val; rw [h1]; omega
  | ⟨2, _⟩ => show win0_0.index t 2 * 1024 + 1 * b.val = t.val / 4 * 1024 + b.val; rw [h2]; omega

/-- Entry `(0, p, k, b)` of the middle-cores block at point `t`. -/
theorem mid_block (c : Dev nD) (t : Fin cfg0.N) (ht : t.val < 16) (p : Fin 2) (k : Fin 2048) (b : Fin 1024) :
    (iblk m c 1 t : Vec F S1x2x2048x1024 .f32) (ix4 (0 : Fin 1) p k b)
      = m ((c : Thread nD τ).loc main_arg1) (ix4 (Cert.Spec.objOf t.val) p k (Cert.Spec.colOf t.val ht b)) := by
  obtain ⟨h0, h1, h2, h3⟩ := idx1 t
  unfold iblk
  rw [View.read_apply]
  show V m c main_arg1 _ = m (c.tc.loc main_arg1) _
  rw [V_main_arg1]
  refine congrArg _ (funext fun a => Fin.ext ?_)
  match a with
  | ⟨0, _⟩ => show win0_1.index t 0 * 1 + 1 * 0 = t.val % 4; rw [h0]; omega
  | ⟨1, _⟩ => show win0_1.index t 1 * 2 + 1 * p.val = p.val; rw [h1]; omega
  | ⟨2, _⟩ => show win0_1.index t 2 * 2048 + 1 * k.val = k.val; rw [h2]; omega
  | ⟨3, _⟩ => show win0_1.index t 3 * 1024 + 1 * b.val = t.val / 4 * 1024 + b.val; rw [h3]; omega

/-- Entry `(0, k, b)` of the last-core block at point `t`. -/
theorem last_block (c : Dev nD) (t : Fin cfg0.N) (ht : t.val < 16) (k : Fin 128) (b : Fin 1024) :
    (iblk m c 2 t : Vec F S1x128x1024 .f32) (ix3 (0 : Fin 1) k b)
      = m ((c : Thread nD τ).loc main_arg2) (ix3 (Cert.Spec.objOf t.val) k (Cert.Spec.colOf t.val ht b)) := by
  obtain ⟨h0, h1, h2⟩ := idx2 t
  unfold iblk
  rw [View.read_apply]
  show V m c main_arg2 _ = m (c.tc.loc main_arg2) _
  rw [V_main_arg2]
  refine congrArg _ (funext fun a => Fin.ext ?_)
  match a with
  | ⟨0, _⟩ => show win0_2.index t 0 * 1 + 1 * 0 = t.val % 4; rw [h0]; omega
  | ⟨1, _⟩ => show win0_2.index t 1 * 128 + 1 * k.val = k.val; rw [h1]; omega
  | ⟨2, _⟩ => show win0_2.index t 2 * 1024 + 1 * b.val = t.val / 4 * 1024 + b.val; rw [h2]; omega

/-! ## The weight blocks: the whole arrays -/

/-- The first-core weight window presents its whole array at every point. -/
theorem wfirst_block (c : Dev nD) (t : Fin cfg0.N) (co : Fin 4) (o : Fin 32) (k : Fin 128) :
    (iblk m c 3 t : Vec F S4x32x128 .bf16) (ix3 co o k) = V m c main_v6 (ix3 co o k) := by
  obtain ⟨h0, h1, h2⟩ := idx3 t
  unfold iblk
  rw [View.read_apply]
  show V m c main_v6 _ = V m c main_v6 _
  refine congrArg _ (funext fun a => Fin.ext ?_)
  match a with
  | ⟨0, _⟩ => show win0_3.index t 0 * 4 + 1 * co.val = co.val; rw [h0]; omega
  | ⟨1, _⟩ => show win0_3.index t 1 * 32 + 1 * o.val = o.val; rw [h1]; omega
  | ⟨2, _⟩ => show win0_3.index t 2 * 128 + 1 * k.val = k.val; rw [h2]; omega

/-- The middle-cores weight window presents its whole array at every point. -/
theorem wmid_block (c : Dev nD) (t : Fin cfg0.N) (co : Fin 4) (p : Fin 2) (o : Fin 32) (k : Fin 2048) :
    (iblk m c 4 t : Vec F S4x2x32x2048 .bf16) (ix4 co p o k) = V m c main_v8 (ix4 co p o k) := by
  obtain ⟨h0, h1, h2, h3⟩ := idx4 t
  unfold iblk
  rw [View.read_apply]
  show V m c main_v8 _ = V m c main_v8 _
  refine congrArg _ (funext fun a => Fin.ext ?_)
  match a with
  | ⟨0, _⟩ => show win0_4.index t 0 * 4 + 1 * co.val = co.val; rw [h0]; omega
  | ⟨1, _⟩ => show win0_4.index t 1 * 2 + 1 * p.val = p.val; rw [h1]; omega
  | ⟨2, _⟩ => show win0_4.index t 2 * 32 + 1 * o.val = o.val; rw [h2]; omega
  | ⟨3, _⟩ => show win0_4.index t 3 * 2048 + 1 * k.val = k.val; rw [h3]; omega

/-- The last-core weight window presents its whole array at every point. -/
theorem wlast_block (c : Dev nD) (t : Fin cfg0.N) (co : Fin 4) (o : Fin 32) (k : Fin 128) :
    (iblk m c 5 t : Vec F S4x32x128 .bf16) (ix3 co o k) = V m c main_v10 (ix3 co o k) := by
  obtain ⟨h0, h1, h2⟩ := idx5 t
  unfold iblk
  rw [View.read_apply]
  show V m c main_v10 _ = V m c main_v10 _
  refine congrArg _ (funext fun a => Fin.ext ?_)
  match a with
  | ⟨0, _⟩ => show win0_5.index t 0 * 4 + 1 * co.val = co.val; rw [h0]; omega
  | ⟨1, _⟩ => show win0_5.index t 1 * 32 + 1 * o.val = o.val; rw [h1]; omega
  | ⟨2, _⟩ => show win0_5.index t 2 * 128 + 1 * k.val = k.val; rw [h2]; omega

end Cert.KernelIdeal.WindowBlocks

end
-- ==== Proof.WeightSlabs.lean ====
/-
  The three weight slabs the kernel stages, as re-indexings of the weight matrix.

  Before its grid runs, the kernel cuts the weight `W : [17408, 32]` into three arrays. It first views `W` as
  `[4, 4352, 32]` (object `c` owns the 4352 consecutive rows `c · 4352 …`), then takes of every object
    • the first 128 rows,                transposed to `[4, 32, 128]`;
    • the middle 4096 rows, viewed as two runs of 2048 (`[4, 2, 2048, 32]`), transposed to `[4, 2, 32, 2048]`;
    • the last 128 rows (from row 4224), transposed to `[4, 32, 128]`;
  and changes each one's float format, which over the extended reals is the identity. So every entry of the three
  arrays is one entry of `W`:
      first [c, o, k]     = W[c · 4352 + k, o]
      middle[c, m, o, k]  = W[c · 4352 + 128 + m · 2048 + k, o]
      last  [c, o, k]     = W[c · 4352 + 4224 + k, o]
  Each theorem below first writes the array as the composed term of the operations that produce it, then reads that
  term at an index one operation at a time, outermost first: a format change reads through, a transpose swaps two
  coordinates, a slice adds its offset to the cut coordinate, and a reshape keeps the row-major position — the one
  place arithmetic is needed, and it is linear.
-/
import proofs.«132847_j60473139528502_2_alg».proof.Proof.Spec
import proofs.«132847_j60473139528502_2_alg».proof.Proof.Gen.KernelIdeal.Frame.Runs
import Idealize.ShloMosaic.Lib.StableHlo.Run
import Idealize.ShloMosaic.Lib.ValueLayout
import Idealize.ShloMosaic.Lib.ValueIdx

noncomputable section

namespace Cert.KernelIdeal.WeightSlabs

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-! ## Each array as the composed term of the weight -/

/-- The first slab: the weight viewed as `[4, 4352, 32]`, rows `0 … 127` of every object, the last two axes swapped,
    the format changed. -/
theorem first_term :
    @Eq (FVec Ideal S4x32x128 .bf16) (V m c main_v6)
      (truncf .bf16 (transpose S4x32x128 [0, 2, 1] (extractStridedSlice S4x128x32 ![0, 0, 0]
        (shapeCast S4x4352x32 (m ((c : Thread nD τ).loc main_arg3)) shapeCasts_S17408x32_S4x4352x32)
        slices_S4x4352x32_S4x128x32_0_0_0) transposes_S4x128x32_S4x32x128_0_2_1) bitsLt_bf16_f32) := by
  show StableHlo.after hostOps0 (fun b => m (c, b)) (Proc.devRef .tc main_v6) = _
  after_results
  rfl

/-- The middle slab: the weight viewed as `[4, 4352, 32]`, rows `128 … 4223` of every object, viewed as
    `[4, 2, 2048, 32]`, the last two axes swapped, the format changed. -/
theorem mid_term :
    @Eq (FVec Ideal S4x2x32x2048 .bf16) (V m c main_v8)
      (truncf .bf16 (transpose S4x2x32x2048 [0, 1, 3, 2] (shapeCast S4x2x2048x32 (extractStridedSlice S4x4096x32 ![0, 128, 0]
        (shapeCast S4x4352x32 (m ((c : Thread nD τ).loc main_arg3)) shapeCasts_S17408x32_S4x4352x32)
        slices_S4x4352x32_S4x4096x32_0_128_0) shapeCasts_S4x4096x32_S4x2x2048x32)
        transposes_S4x2x2048x32_S4x2x32x2048_0_1_3_2) bitsLt_bf16_f32) := by
  show StableHlo.after hostOps0 (fun b => m (c, b)) (Proc.devRef .tc main_v8) = _
  after_results
  rfl

/-- The last slab: the weight viewed as `[4, 4352, 32]`, rows `4224 … 4351` of every object, the last two axes
    swapped, the format changed. -/
theorem last_term :
    @Eq (FVec Ideal S4x32x128 .bf16) (V m c main_v10)
      (truncf .bf16 (transpose S4x32x128 [0, 2, 1] (extractStridedSlice S4x128x32 ![0, 4224, 0]
        (shapeCast S4x4352x32 (m ((c : Thread nD τ).loc main_arg3)) shapeCasts_S17408x32_S4x4352x32)
        slices_S4x4352x32_S4x128x32_0_4224_0) transposes_S4x128x32_S4x32x128_0_2_1) bitsLt_bf16_f32) := by
  show StableHlo.after hostOps0 (fun b => m (c, b)) (Proc.devRef .tc main_v10) = _
  after_results
  rfl

/-! ## The arrays read at an index -/

/-- Entry `(c, o, k)` of the first slab is the weight at row `c · 4352 + k`, column `o`. -/
theorem first_slab (co : Fin 4) (o : Fin 32) (k : Fin 128) :
    (V m c main_v6 : S4x32x128.Idx → EReal) (ix3 co o k)
      = (m ((c : Thread nD τ).loc main_arg3) : S17408x32.Idx → EReal) (ix2 (Cert.Spec.rowFirst co k) o) := by
  refine (congrFun (first_term m c) (ix3 co o k)).trans ?_
  -- the format change reads through
  refine (truncf_apply (s := S4x32x128) (φ := .f32) (ψ := .bf16) _ bitsLt_bf16_f32 (ix3 co o k)).trans ?_
  -- the transpose reads `(c, k, o)`
  refine (transpose_ix3_021_apply _ _ co o k).trans ?_
  -- the slice starts at row 0 of the object: row `k` of its 4352
  refine (slice3_axis1_apply 0 _ _ co k o ⟨k.val, by omega⟩ (by show k.val = 0 + k.val; omega)).trans ?_
  -- the reshape keeps the row-major position: `(c · 4352 + k) · 32 + o` on both sides
  refine shapeCast_apply _ _ _ (ix2 (Cert.Spec.rowFirst co k) o) ?_
  rw [Shape.rowMajor_val_two, Shape.rowMajor_val_three]
  show (co.val * 4352 + k.val) * 32 + o.val = (co.val * 4352 + k.val) * 32 + o.val
  rfl

/-- Entry `(c, m, o, k)` of the middle slab is the weight at row `c · 4352 + 128 + m · 2048 + k`, column `o`. -/
theorem mid_slab (co : Fin 4) (mm : Fin 2) (o : Fin 32) (k : Fin 2048) :
    (V m c main_v8 : S4x2x32x2048.Idx → EReal) (ix4 co mm o k)
      = (m ((c : Thread nD τ).loc main_arg3) : S17408x32.Idx → EReal) (ix2 (Cert.Spec.rowMid co mm k) o) := by
  refine (congrFun (mid_term m c) (ix4 co mm o k)).trans ?_
  -- the format change reads through
  refine (truncf_apply (s := S4x2x32x2048) (φ := .f32) (ψ := .bf16) _ bitsLt_bf16_f32 (ix4 co mm o k)).trans ?_
  -- the transpose reads `(c, m, k, o)`
  refine (transpose_apply _ _ _ (ix4 co mm o k) (ix4 co mm k o)
    (fun b => match b with | ⟨0, _⟩ => rfl | ⟨1, _⟩ => rfl | ⟨2, _⟩ => rfl | ⟨3, _⟩ => rfl)).trans ?_
  -- the reshape `[4, 4096, 32] → [4, 2, 2048, 32]`: row `m · 2048 + k` of the object's 4096 middle rows
  refine (shapeCast_apply _ _ (ix4 co mm k o) (ix3 co (⟨mm.val * 2048 + k.val, by omega⟩ : Fin 4096) o) (by
    rw [Shape.rowMajor_val_three, Shape.rowMajor_val_four]
    show (co.val * 4096 + (mm.val * 2048 + k.val)) * 32 + o.val = ((co.val * 2 + mm.val) * 2048 + k.val) * 32 + o.val
    omega)).trans ?_
  -- the slice starts at row 128 of the object: row `128 + (m · 2048 + k)` of its 4352
  refine (slice3_axis1_apply 128 _ _ co (⟨mm.val * 2048 + k.val, by omega⟩ : Fin 4096) o
    (⟨128 + (mm.val * 2048 + k.val), by omega⟩ : Fin 4352) rfl).trans ?_
  -- the reshape `[17408, 32] → [4, 4352, 32]` keeps the row-major position
  refine shapeCast_apply _ _ _ (ix2 (Cert.Spec.rowMid co mm k) o) ?_
  rw [Shape.rowMajor_val_two, Shape.rowMajor_val_three]
  show (co.val * 4352 + 128 + mm.val * 2048 + k.val) * 32 + o.val
    = (co.val * 4352 + (128 + (mm.val * 2048 + k.val))) * 32 + o.val
  omega

/-- Entry `(c, o, k)` of the last slab is the weight at row `c · 4352 + 4224 + k`, column `o`. -/
theorem last_slab (co : Fin 4) (o : Fin 32) (k : Fin 128) :
    (V m c main_v10 : S4x32x128.Idx → EReal) (ix3 co o k)
      = (m ((c : Thread nD τ).loc main_arg3) : S17408x32.Idx → EReal) (ix2 (Cert.Spec.rowLast co k) o) := by
  refine (congrFun (last_term m c) (ix3 co o k)).trans ?_
  -- the format change reads through
  refine (truncf_apply (s := S4x32x128) (φ := .f32) (ψ := .bf16) _ bitsLt_bf16_f32 (ix3 co o k)).trans ?_
  -- the transpose reads `(c, k, o)`
  refine (transpose_ix3_021_apply _ _ co o k).trans ?_
  -- the slice starts at row 4224 of the object: row `4224 + k` of its 4352
  refine (slice3_axis1_apply 4224 _ _ co k o (⟨4224 + k.val, by omega⟩ : Fin 4352) rfl).trans ?_
  -- the reshape keeps the row-major position
  refine shapeCast_apply _ _ _ (ix2 (Cert.Spec.rowLast co k) o) ?_
  rw [Shape.rowMajor_val_two, Shape.rowMajor_val_three]
  show (co.val * 4352 + 4224 + k.val) * 32 + o.val = (co.val * 4352 + (4224 + k.val)) * 32 + o.val
  omega

end Cert.KernelIdeal.WeightSlabs

end
-- ==== Proof.Accum.lean ====
/-
  The accumulation across the grid.

  The 16 grid points are 4 batch tiles × 4 objects, the objects innermost.  The output block of a batch tile stays in
  its staging buffer while the tile's four objects are visited: the first object overwrites it with zeros and adds its
  contribution, each later object adds its own.  So after the point of object `n % 4` the block holds, at position
  (o, b), the sum of the contributions of the objects 0 … n % 4 to entry (column of b in the tile, o) of the result.
-/
import proofs.«132847_j60473139528502_2_alg».proof.Proof.StepValue
import proofs.«132847_j60473139528502_2_alg».proof.Proof.Spec
import proofs.«132847_j60473139528502_2_alg».proof.Proof.WindowBlocks
import proofs.«132847_j60473139528502_2_alg».proof.Proof.WeightSlabs

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.PointValue Cert.KernelIdeal.StepValue

variable (m : (ℓ : Loc nD τ sig) → Buf (Elt Ideal) ℓ)

/-- The four argument arrays on core `c`, as the specification's arguments. -/
abbrev argFirst (c : Dev nD) : Spec.SCore.Idx → EReal := m ((c : Thread nD τ).loc main_arg0)
abbrev argMid (c : Dev nD) : Spec.SMid.Idx → EReal := m ((c : Thread nD τ).loc main_arg1)
abbrev argLast (c : Dev nD) : Spec.SCore.Idx → EReal := m ((c : Thread nD τ).loc main_arg2)
abbrev argWeight (c : Dev nD) : Spec.SWeight.Idx → EReal := m ((c : Thread nD τ).loc main_arg3)

/-- The contributions of objects `0 … n - 1` to entry `(b, o)`, of core `c`'s arguments. -/
abbrev psum (c : Dev nD) (n : ℕ) (b : Fin 4096) (o : Fin 32) : EReal :=
  Spec.partialSum (argFirst m c) (argMid m c) (argLast m c) (argWeight m c) n b o

theorem lt16 (t : Fin cfg0.N) : t.val < 16 := lt_of_lt_of_eq t.isLt (show cfg0.N = 16 from N_0)

/-- At point `t` the body adds, at position `(o, b)`, the contribution of `t`'s object to the entry under `b`. -/
theorem step_term (c : Dev nD) (t : Fin cfg0.N) (acc : Vec Ideal S32x1024 .f32) (o : Fin 32) (b : Fin 1024) :
    step (F := Ideal) (grid0.coords t) (iblk m c 0 t) (iblk m c 1 t) (iblk m c 2 t) (iblk m c 3 t) (iblk m c 4 t) (iblk m c 5 t) acc (ix2 o b)
      = acc (ix2 o b) + Spec.term (argFirst m c) (argMid m c) (argLast m c) (argWeight m c) (Spec.objOf t.val) (Spec.colOf t.val (lt16 t) b) o := by
  refine (step_apply (grid0.coords t) (iblk m c 0 t) (iblk m c 1 t) (iblk m c 2 t) (iblk m c 3 t) (iblk m c 4 t) (iblk m c 5 t) acc o b).trans ?_
  unfold Spec.term
  refine congrArg (acc (ix2 o b) + ·) ?_
  refine congrArg₂ (· + ·) (congrArg₂ (· + ·) (congrArg₂ (· + ·) ?_ ?_) ?_) ?_
  · exact Finset.sum_congr rfl fun k _ => congrArg₂ (· * ·)
      ((slab3_apply (grid0.coords t) (iblk m c 3 t) (Spec.objOf t.val) (WindowBlocks.off_short t) o k).trans
        ((WindowBlocks.wfirst_block m c t (Spec.objOf t.val) o k).trans (WeightSlabs.first_slab m c (Spec.objOf t.val) o k)))
      (WindowBlocks.first_block m c t (lt16 t) k b)
  · exact Finset.sum_congr rfl fun k _ => congrArg₂ (· * ·)
      ((slab4_apply (grid0.coords t) (iblk m c 4 t) (Spec.objOf t.val) (WindowBlocks.off_long t) 0 o k).trans
        ((WindowBlocks.wmid_block m c t (Spec.objOf t.val) 0 o k).trans (WeightSlabs.mid_slab m c (Spec.objOf t.val) 0 o k)))
      (WindowBlocks.mid_block m c t (lt16 t) 0 k b)
  · exact Finset.sum_congr rfl fun k _ => congrArg₂ (· * ·)
      ((slab4_apply (grid0.coords t) (iblk m c 4 t) (Spec.objOf t.val) (WindowBlocks.off_long t) 1 o k).trans
        ((WindowBlocks.wmid_block m c t (Spec.objOf t.val) 1 o k).trans (WeightSlabs.mid_slab m c (Spec.objOf t.val) 1 o k)))
      (WindowBlocks.mid_block m c t (lt16 t) 1 k b)
  · exact Finset.sum_congr rfl fun k _ => congrArg₂ (· * ·)
      ((slab3_apply (grid0.coords t) (iblk m c 5 t) (Spec.objOf t.val) (WindowBlocks.off_short t) o k).trans
        ((WindowBlocks.wlast_block m c t (Spec.objOf t.val) o k).trans (WeightSlabs.last_slab m c (Spec.objOf t.val) o k)))
      (WindowBlocks.last_block m c t (lt16 t) k b)

/-- The zero block the first object stores is zero. -/
theorem zero_block (o : Fin 32) (b : Fin 1024) : (k0_pay2 (F := Ideal)) (ix2 o b) = 0 :=
  Ideal.ofBits_zero_f32

/-- A batch tile's FIRST object leaves its own contribution. -/
theorem first_object (c : Dev nD) (t : Fin cfg0.N) (h0 : t.val % 4 = 0) (o : Fin 32) (b : Fin 1024) :
    outsAt0 m c t.val t.isLt (ix2 o b) = psum m c (t.val % 4 + 1) (Spec.colOf t.val (lt16 t) b) o := by
  rw [outsAt0_A m c t h0, out_first]
  refine (step_term m c t _ o b).trans ?_
  rw [zero_block, h0]
  show _ = Spec.partialSum _ _ _ _ (0 + 1) _ _
  rw [Spec.partialSum_succ _ _ _ _ 0 (by decide), Spec.partialSum_zero]
  exact congrArg (0 + Spec.term _ _ _ _ · _ _) (Fin.ext h0)

/-- A LATER object adds its contribution to what the object before it left. -/
theorem later_object (c : Dev nD) (t : Fin cfg0.N) (h0 : ¬t.val % 4 = 0) (o : Fin 32) (b : Fin 1024)
    (ih : outsAt0 m c (t.val - 1) (Nat.lt_of_le_of_lt (Nat.sub_le _ _) t.isLt) (ix2 o b)
      = psum m c ((t.val - 1) % 4 + 1) (Spec.colOf (t.val - 1) (by have := lt16 t; omega) b) o) :
    outsAt0 m c t.val t.isLt (ix2 o b) = psum m c (t.val % 4 + 1) (Spec.colOf t.val (lt16 t) b) o := by
  rw [outsAt0_B m c t h0, out_later]
  refine (step_term m c t _ o b).trans ?_
  rw [ih]
  have hlt : (t.val - 1) % 4 + 1 < 4 := by omega
  have hobj : Spec.objOf t.val = ⟨(t.val - 1) % 4 + 1, hlt⟩ := Fin.ext (by show t.val % 4 = (t.val - 1) % 4 + 1; omega)
  have hcol : Spec.colOf (t.val - 1) (by have := lt16 t; omega) b = Spec.colOf t.val (lt16 t) b :=
    Fin.ext (by show (t.val - 1) / 4 * 1024 + b.val = t.val / 4 * 1024 + b.val; omega)
  have hn : t.val % 4 + 1 = ((t.val - 1) % 4 + 1) + 1 := by omega
  rw [hcol, hobj, hn]
  exact (Spec.partialSum_succ _ _ _ _ _ hlt _ _).symm

/-- THE INVARIANT, by induction on the point. -/
theorem outsAt_eq (c : Dev nD) : ∀ (n : ℕ) (h : n < cfg0.N) (o : Fin 32) (b : Fin 1024),
    outsAt0 m c n h (ix2 o b) = psum m c (n % 4 + 1) (Spec.colOf n (lt16 ⟨n, h⟩) b) o
  | 0, h, o, b => first_object m c ⟨0, h⟩ rfl o b
  | n + 1, h, o, b => by
    by_cases h0 : (n + 1) % 4 = 0
    · exact first_object m c ⟨n + 1, h⟩ h0 o b
    · exact later_object m c ⟨n + 1, h⟩ h0 o b (outsAt_eq c n (Nat.lt_of_succ_lt h) o b)

end Cert.KernelIdeal.Accum

end
-- ==== Proof.Result.lean ====
/-
  From the output blocks to the result.

  The output window's block at point t is rows 0…31 and columns 1024·(t / 4) … 1024·(t / 4) + 1023 of the [32, 4096]
  array the region writes; it is written back after the last object of each batch tile, when it holds the full sum of
  the four objects' contributions.  The four written-back blocks tile the array, so the array ends as the specification
  with its two axes exchanged; the transposition that follows the region exchanges them back.
-/
import proofs.«132847_j60473139528502_2_alg».proof.Proof.Accum
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accum

variable (m : (ℓ : Loc nD τ sig) → Buf (Elt Ideal) ℓ) (ρ : Dev nD → PrngReg)

/-- The specification of core `c`'s arguments. -/
abbrev spec (c : Dev nD) : Spec.SRes.Idx → EReal :=
  Spec.G (argFirst m c) (argMid m c) (argLast m c) (argWeight m c)

/-- What the region's array ends holding: the specification with its axes exchanged, `[out, batch]`. -/
def regionValue (c : Dev nD) : S32x4096.Idx → EReal := fun j => spec m c (ix2 (j 1) (j 0))

/-- The output window's index map, decided over the grid: block row 0, block column the batch tile. -/
theorem out_index : ∀ t : Fin cfg0.N, win0_6.index t (0 : Fin 2) = 0 ∧ win0_6.index t (1 : Fin 2) = t.val / 4 :=
  (by decide +kernel : ∀ t : Fin grid0.N, _)

/-- What a batch tile's last point writes back is its block of `regionValue`. -/
theorem flushed_eq (c : Dev nD) (t : Fin cfg0.N) (hf : (cfg0.win 6).flush t = true) :
    (dats m 0 c).flushed 6 t = ((cfg0.win 6).blk t).view.read (Elt Ideal) (regionValue m c) := by
  have h3 : t.val % 4 = 3 := (flush0_6 t).mp hf
  obtain ⟨e0, e1⟩ := out_index t
  show (cfg0.win 6).cut (grid0.coords t) ((dats m 0 c).after 6 t) = _
  rw [after0_6]
  funext j
  obtain ⟨o, b, rfl⟩ : ∃ (o : Fin 32) (b : Fin 1024), j = ix2 o b := ⟨j 0, j 1, eq_ix2 j⟩
  show outsAt0 m c t.val t.isLt (ix2 o b) = regionValue m c (((cfg0.win 6).blk t).view.emb (ix2 o b))
  rw [outsAt_eq m c t.val t.isLt o b, h3]
  show Spec.partialSum _ _ _ _ 4 _ _ = _
  rw [Spec.partialSum_four]
  unfold regionValue
  refine congrArg (spec m c) (funext fun a => Fin.ext ?_)
  match a with
  | ⟨0, _⟩ => show t.val / 4 * 1024 + b.val = win0_6.index t (1 : Fin 2) * 1024 + 1 * b.val; rw [e1]; omega
  | ⟨1, _⟩ => show o.val = win0_6.index t (0 : Fin 2) * 32 + 1 * o.val; rw [e0]; omega

/-- An index of the array is in point `t`'s block iff each coordinate is in the block's range on its axis. -/
theorem mem_blk (t : Fin cfg0.N) (i : S32x4096.Idx) :
    i ∈ ((cfg0.win 6).blk t).view.set ↔ ∀ a : Fin 2, win0_6.index t a * S32x1024.size a ≤ (i a).val ∧ (i a).val < win0_6.index t a * S32x1024.size a + S32x1024.size a := by
  show i ∈ ((View.whole main_v11).slice (win0_6.rect t)).set ↔ _
  rw [View.set_slice_whole, Rect.mem_set_unit]
  exact Iff.rfl

/-- Every index of the array is under the block of its batch tile's last point. -/
theorem cover (i : S32x4096.Idx) : ∃ t : Fin cfg0.N, (cfg0.win 6).flush t = true ∧ i ∈ ((cfg0.win 6).blk t).view.set := by
  have hi0 : (i 0).val < 32 := (i 0).isLt
  have hi1 : (i 1).val < 4096 := (i 1).isLt
  have hN : cfg0.N = 16 := N_0
  have hlt : 4 * ((i 1).val / 1024) + 3 < cfg0.N := by rw [hN]; omega
  refine ⟨⟨4 * ((i 1).val / 1024) + 3, hlt⟩, (flush0_6 _).mpr (by show (4 * ((i 1).val / 1024) + 3) % 4 = 3; omega), ?_⟩
  obtain ⟨e0, e1⟩ := out_index ⟨4 * ((i 1).val / 1024) + 3, hlt⟩
  rw [mem_blk]
  intro a
  match a with
  | ⟨0, _⟩ => show win0_6.index _ (0 : Fin 2) * 32 ≤ (i 0).val ∧ (i 0).val < win0_6.index _ (0 : Fin 2) * 32 + 32; rw [e0]; omega
  | ⟨1, _⟩ => show win0_6.index _ (1 : Fin 2) * 1024 ≤ (i 1).val ∧ (i 1).val < win0_6.index _ (1 : Fin 2) * 1024 + 1024
              rw [e1]; show (4 * ((i 1).val / 1024) + 3) / 4 * 1024 ≤ (i 1).val ∧ (i 1).val < (4 * ((i 1).val / 1024) + 3) / 4 * 1024 + 1024; omega

/-- So the region's array ends holding `regionValue`. -/
theorem final (c : Dev nD) : (dats m 0 c).arrAt 6 cfg0.N = regionValue m c :=
  (dats m 0 c).arrAt_eq_of_cover 6 (regionValue m c) (flushed_eq m c) (cover)

end Cert.KernelIdeal.Result

end
-- ==== Proof.TailRead.lean ====
/-
  The result array as the transpose of what the grid leaves.

  After its grid has run, the program performs one more operation: it transposes the `[32, 4096]` array the grid wrote
  (rows indexed by output column, columns by batch entry) into the `[4096, 32]` result. Every other array is left
  alone, so the result's entry `(b, o)` is the grid's array at `(o, b)`. The two steps below are: the result as the
  transpose of the grid's array (the contents the grid leaves are, at the grid's own output array, what its last
  write-back made of it), and a transposed matrix read at an index. Nothing here depends on how floats are read:
  a transposition only moves entries.
-/
import proofs.«132847_j60473139528502_2_alg».proof.Proof.Gen.KernelIdeal.Frame
import Idealize.ShloMosaic.Lib.StableHlo.Run
import Idealize.ShloMosaic.Lib.ValueLayout
import Idealize.ShloMosaic.Lib.ValueIdx

noncomputable section

namespace Cert.KernelIdeal.TailRead

open Cert.KernelIdeal Cert.KernelIdeal.Gen
open Idealize.ShloMosaic Idealize.ShloMosaic.TcCoe Idealize.ShloMosaic.ValueIdx

variable {F : FTy → Type} [FloatOps F]
variable (m : (ℓ : Loc nD τ sig) → Buf (Elt F) ℓ) (c : Dev nD)

/-- The result array after the last operation is the transpose of the grid's output array as the grid leaves it: the
    operation writes only the result, and reads the one array the grid wrote, which holds the contents after the last
    of its points. -/
theorem tail_term :
    @Eq ((⟨S4096x32, .f32⟩ : BufTy).Contents (Elt F)) (Pipeline.afterTail₀ cfgs (dats m) 0 (V0 m) [hostOps1] c main_v12)
      (transpose S4096x32 [1, 0] ((dats m 0 c).arrAt 6 cfg0.N) transposes_S32x4096_S4096x32_1_0) := by
  unfold Pipeline.afterTail₀
  show StableHlo.after hostOps1 _ (Proc.devRef .tc main_v12) = _
  after_results
  -- what is left is the transpose of the contents at the grid's output array: the seventh of the grid's arrays
  exact congrArg (fun x => transpose S4096x32 [1, 0] x transposes_S32x4096_S4096x32_1_0)
    (Pipeline.withArrays_arr spec0 launch0.win.arr_inj c (V0 m c) (fun w => (dats m 0 c).arrAt w cfg0.N) 6)

/-- Entry `(b, o)` of the result is entry `(o, b)` of the array `A` the grid leaves, for every reading of floats. -/
theorem tail_read (A : (⟨S32x4096, .f32⟩ : BufTy).Contents (Elt F)) (hA : (dats m 0 c).arrAt 6 cfg0.N = A)
    (b : Fin 4096) (o : Fin 32) :
    (Pipeline.afterTail₀ cfgs (dats m) 0 (V0 m) [hostOps1] c main_v12 : (⟨S4096x32, .f32⟩ : BufTy).Contents (Elt F)) (ix2 b o)
      = A (ix2 o b) := by
  subst hA
  refine (congrFun (tail_term m c) (ix2 b o)).trans ?_
  exact transpose_ix2_apply _ _ b o

/-- The same over the extended reals, the arrays written as functions of their indices. -/
theorem tail_read_ideal (m : (ℓ : Loc nD τ sig) → Buf (Elt Ideal) ℓ) (c : Dev nD)
    (A : S32x4096.Idx → EReal) (hA : (dats m 0 c).arrAt 6 cfg0.N = A) (b : Fin 4096) (o : Fin 32) :
    (Pipeline.afterTail₀ cfgs (dats m) 0 (V0 m) [hostOps1] c main_v12 : S4096x32.Idx → EReal) (ix2 b o) = A (ix2 o b) :=
  tail_read m c A hA b o

end Cert.KernelIdeal.TailRead

end
-- ==== Proof.KernelRun.lean ====
/-
  The idealized kernel's run, read: @main's result is the specification of the arguments, and the arguments are
  unchanged.  The transposition after the region reads entry (b, o) of the result at entry (o, b) of the region's
  array, which holds the specification with its axes exchanged.
-/
import proofs.«132847_j60473139528502_2_alg».proof.Proof.Result
import proofs.«132847_j60473139528502_2_alg».proof.Proof.TailRead

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accum

variable (m : (ℓ : Loc nD τ sig) → Buf (Elt Ideal) ℓ) (ρ : Dev nD → PrngReg)

/-- @main's result, after the transposition that follows the region, is the specification. -/
theorem result_eq (c : Dev nD) :
    (Pipeline.afterTail₀ cfgs (dats m) 0 (V0 m) [hostOps1] c main_v12 : S4096x32.Idx → EReal) = spec m c := by
  funext j
  obtain ⟨b, o, rfl⟩ : ∃ (b : Fin 4096) (o : Fin 32), j = ix2 b o := ⟨j 0, j 1, eq_ix2 j⟩
  exact TailRead.tail_read_ideal m c (regionValue m c) (final m c) b o

/-- THE RUN: every weakly fair execution of the idealized kernel's @main terminates with its result at the
    specification of the argument arrays, the arguments unchanged. -/
theorem run : θ_run defs (onTc (τ := τ) (main (F := Ideal))) ⟨m, fun _ => 0, ρ⟩ fun r => ∀ c : Dev nD,
      r.2.mem ((c : Thread nD τ).loc main_v12) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v12 (Pipeline.mem_restRefs_of main_v12 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.lean ====
/-
  Kernel and reference compute the same function over the extended reals.

  Both programs produce, at entry (b, o) of the [4096, 32] result, the sum over the 17408 rows i of the weight matrix
  of W[i, o] · I[i, b], where I stacks, object by object, the first core, the two middle cores and the last core.
  The reference forms I by concatenation and takes one matrix product.  The kernel never forms I: for each tile of
  1024 batch columns it visits the four objects in turn, multiplies each object's four weight slabs (taken out of the
  weight by reshaping, slicing and transposing before the grid starts) with the object's four core blocks, and
  accumulates the four products into an output block that starts at zero; the [32, 4096] array of the four tiles is
  transposed at the end.  Over the extended reals the narrower float format of the products' operands is the identity
  and the two sums differ only in grouping and in the order of each product's factors, so they agree by commutativity
  and associativity alone — no finiteness of the inputs is used.

    Spec          the common function, and its partial sums over the objects
    SumSplit      a sum over the 17408 rows, split by object and by core
    RefValue      the reference's concatenation read row by row: the reference is the specification
    PointValue    what a grid point leaves in the output block, as the body's arithmetic of its loads
    MatmulRead    a matrix product into the zero block, entry by entry
    StepValue     that arithmetic at an entry: the earlier contents plus four inner products
    WeightSlabs   the three weight arrays the kernel stages, as re-indexings of the weight
    WindowBlocks  the blocks the windows present at a grid point
    Accum         the output block after each point: the partial sum over the objects visited so far
    Result        the written-back blocks tile the region's array: the specification, axes exchanged
    TailRead      the final transposition
    KernelRun     the idealized kernel's run, read at the specification

  The three frame claims: the kernel's two are the generated frame runs; the reference's is its generated run with
  the result dropped.  The idealization rewrote nothing in the kernel, so `preserves` is trivial.
-/
import proofs.«132847_j60473139528502_2_alg».proof.Defs
import proofs.«132847_j60473139528502_2_alg».proof.Proof.Gen.Kernel
import proofs.«132847_j60473139528502_2_alg».proof.Proof.Gen.Kernel.Frame
import proofs.«132847_j60473139528502_2_alg».proof.Proof.Gen.KernelIdeal
import proofs.«132847_j60473139528502_2_alg».proof.Proof.Gen.KernelIdeal.Frame
import proofs.«132847_j60473139528502_2_alg».proof.Proof.Gen.ReferenceIdeal
import proofs.«132847_j60473139528502_2_alg».proof.Proof.Gen.Pre_finite_inputs
import proofs.«132847_j60473139528502_2_alg».proof.Proof.Gen.ReferenceIdeal.Run
import proofs.«132847_j60473139528502_2_alg».proof.Proof.Gen.ReferenceIdeal.Read
import proofs.«132847_j60473139528502_2_alg».proof.Proof.RefValue
import proofs.«132847_j60473139528502_2_alg».proof.Proof.KernelRun

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification of the (agreeing) arguments. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.RefValue.ref_eq_spec, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
